-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000x10 : Shape := ⟨2, ![50000, 10]⟩
abbrev S128x96 : Shape := ⟨2, ![128, 96]⟩
abbrev S96 : Shape := ⟨1, ![96]⟩
abbrev S106x96 : Shape := ⟨2, ![106, 96]⟩
abbrev S224x1 : Shape := ⟨2, ![224, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x10 : S_.BroadcastsInDim S50000x10 (![] : Fin 0 → Fin S50000x10.rank)
  reducesTo_S50000x10_S_d0_1 : S50000x10.ReducesTo [0, 1] S_
  bcast_S_S128x96 : S_.BroadcastsInDim S128x96 (![] : Fin 0 → Fin S128x96.rank)
  reducesTo_S128x96_S_d0_1 : S128x96.ReducesTo [0, 1] S_
  bcast_S_S96 : S_.BroadcastsInDim S96 (![] : Fin 0 → Fin S96.rank)
  reducesTo_S96_S_d0 : S96.ReducesTo [0] S_
  bcast_S_S106x96 : S_.BroadcastsInDim S106x96 (![] : Fin 0 → Fin S106x96.rank)
  reducesTo_S106x96_S_d0_1 : S106x96.ReducesTo [0, 1] S_
  bcast_S_S224x1 : S_.BroadcastsInDim S224x1 (![] : Fin 0 → Fin S224x1.rank)
  reducesTo_S224x1_S_d0_1 : S224x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S106x96 .f32) (main_arg6 : FVec F S96 .f32) (main_arg7 : FVec F S224x1 .f32) (main_arg8 : FVec F S1 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S106x96 .f32 := Host.absf main_arg5
  let main_cst_6 : FVec F S_ .f32 := constant S_ .f32 0x7F800000#32
  let main_v20 : FVec F S106x96 .f32 := broadcastInDim S106x96 ![] bcast_S_S106x96 main_cst_6
  let main_v21 : IVec S106x96 1 := cmpf .olt main_v19 main_v20
  let main_c_7 : IVec S_ 1 := constantI S_ 1 1#1
  let main_v22 : IVec S_ 1 := (fun x v => Host.reduce IntOp.andi x v reducesTo_S106x96_S_d0_1 h_S_) main_v21 main_c_7
  let main_v23 : IVec S_ 1 := andi main_v18 main_v22
  let main_v24 : FVec F S96 .f32 := Host.absf main_arg6
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S224x1 .f32 := Host.absf main_arg7
  let main_cst_10 : FVec F S_ .f32 := constant S_ .f32 0x7F800000#32
  let main_v30 : FVec F S224x1 .f32 := broadcastInDim S224x1 ![] bcast_S_S224x1 main_cst_10
  let main_v31 : IVec S224x1 1 := cmpf .olt main_v29 main_v30
  let main_c_11 : IVec S_ 1 := constantI S_ 1 1#1
  let main_v32 : IVec S_ 1 := (fun x v => Host.reduce IntOp.andi x v reducesTo_S224x1_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x800000 32) (main_arg2 : FVec F S50000x10 .f32) (main_arg3 : FVec F S128x96 .f32) (main_arg4 : FVec F S96 .f32) (main_arg5 : FVec F S106x96 .f32) (main_arg6 : FVec F S96 .f32) (main_arg7 : FVec F S224x1 .f32) (main_arg8 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x10 .f32 := Host.absf main_arg2
  let main_cst_0 : FVec F S_ .f32 := constant S_ .f32 0x7F800000#32
  let main_v5 : FVec F S50000x10 .f32 := broadcastInDim S50000x10 ![] bcast_S_S50000x10 main_cst_0
  let main_v6 : IVec S50000x10 1 := cmpf .olt main_v4 main_v5
  let main_c_1 : IVec S_ 1 := constantI S_ 1 1#1
  let main_v7 : IVec S_ 1 := (fun x v => Host.reduce IntOp.andi x v reducesTo_S50000x10_S_d0_1 h_S_) main_v6 main_c_1
  let main_v8 : IVec S_ 1 := andi main_v3 main_v7
  let main_v9 : FVec F S128x96 .f32 := Host.absf main_arg3
  let main_cst_2 : FVec F S_ .f32 := constant S_ .f32 0x7F800000#32
  let main_v10 : FVec F S128x96 .f32 := broadcastInDim S128x96 ![] bcast_S_S128x96 main_cst_2
  let main_v11 : IVec S128x96 1 := cmpf .olt main_v9 main_v10
  let main_c_3 : IVec S_ 1 := constantI S_ 1 1#1
  let main_v12 : IVec S_ 1 := (fun x v => Host.reduce IntOp.andi x v reducesTo_S128x96_S_d0_1 h_S_) main_v11 main_c_3
  let main_v13 : IVec S_ 1 := andi main_v8 main_v12
  let main_v14 : FVec F S96 .f32 := Host.absf main_arg4
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg5 main_arg6 main_arg7 main_arg8 main_v13 main_v16
-- ==== Kernel.lean ====
abbrev S50000x128 : Shape := ⟨2, ![50000, 128]⟩
abbrev S2x800000 : Shape := ⟨2, ![2, 800000]⟩
abbrev S50000x10 : Shape := ⟨2, ![50000, 10]⟩
abbrev S128x96 : Shape := ⟨2, ![128, 96]⟩
abbrev S96 : Shape := ⟨1, ![96]⟩
abbrev S106x96 : Shape := ⟨2, ![106, 96]⟩
abbrev S224x1 : Shape := ⟨2, ![224, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x96 : Shape := ⟨2, ![50000, 96]⟩
abbrev S2000x128 : Shape := ⟨2, ![2000, 128]⟩
abbrev S2000x96 : Shape := ⟨2, ![2000, 96]⟩
abbrev S850000x96 : Shape := ⟨2, ![850000, 96]⟩
abbrev S1x96 : Shape := ⟨2, ![1, 96]⟩
abbrev S1x1 : Shape := ⟨2, ![1, 1]⟩
abbrev S50000x1 : Shape := ⟨2, ![50000, 1]⟩
abbrev S1000x96 : Shape := ⟨2, ![1000, 96]⟩
abbrev S1000x10 : Shape := ⟨2, ![1000, 10]⟩
abbrev S1000x128 : Shape := ⟨2, ![1000, 128]⟩
abbrev S1000x1 : Shape := ⟨2, ![1000, 1]⟩
abbrev S1000x106 : Shape := ⟨2, ![1000, 106]⟩
abbrev S1000x224 : Shape := ⟨2, ![1000, 224]⟩

abbrev nBuf : Space → Nat
  | .hbm => 70
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000x10, .f32⟩
  | .hbm, ⟨3, _⟩ => ⟨S128x96, .f32⟩
  | .hbm, ⟨4, _⟩ => ⟨S96, .f32⟩
  | .hbm, ⟨5, _⟩ => ⟨S106x96, .f32⟩
  | .hbm, ⟨6, _⟩ => ⟨S96, .f32⟩
  | .hbm, ⟨7, _⟩ => ⟨S224x1, .f32⟩
  | .hbm, ⟨8, _⟩ => ⟨S1, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x96, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x96, .f32⟩
  | .hbm, ⟨59, _⟩ => ⟨S850000x1, .f32⟩
  | .hbm, ⟨60, _⟩ => ⟨S850000x96, .f32⟩
  | .hbm, ⟨61, _⟩ => ⟨S850000x96, .f32⟩
  | .hbm, ⟨62, _⟩ => ⟨S_, .f32⟩
  | .hbm, ⟨63, _⟩ => ⟨S50000x96, .f32⟩
  | .hbm, ⟨64, _⟩ => ⟨S850000x1, .i32⟩
  | .hbm, ⟨65, _⟩ => ⟨S50000x96, .f32⟩
  | .hbm, ⟨66, _⟩ => ⟨S1x96, .f32⟩
  | .hbm, ⟨67, _⟩ => ⟨S1x96, .f32⟩
  | .hbm, ⟨68, _⟩ => ⟨S1x1, .f32⟩
  | .hbm, ⟨69, _⟩ => ⟨S50000x1, .f32⟩
  | .local _ .vmem, ⟨0, _⟩ => ⟨S2000x128, .f32⟩
  | .local _ .vmem, ⟨1, _⟩ => ⟨S2000x128, .f32⟩
  | .local _ .vmem, ⟨2, _⟩ => ⟨S128x96, .f32⟩
  | .local _ .vmem, ⟨3, _⟩ => ⟨S2000x96, .f32⟩
  | .local _ .vmem, ⟨4, _⟩ => ⟨S2000x96, .f32⟩
  | .local _ .vmem, ⟨5, _⟩ => ⟨S1000x96, .f32⟩
  | .local _ .vmem, ⟨6, _⟩ => ⟨S1000x96, .f32⟩
  | .local _ .vmem, ⟨7, _⟩ => ⟨S1x96, .f32⟩
  | .local _ .vmem, ⟨8, _⟩ => ⟨S1000x10, .f32⟩
  | .local _ .vmem, ⟨9, _⟩ => ⟨S1000x10, .f32⟩
  | .local _ .vmem, ⟨10, _⟩ => ⟨S1000x128, .f32⟩
  | .local _ .vmem, ⟨11, _⟩ => ⟨S1000x128, .f32⟩
  | .local _ .vmem, ⟨12, _⟩ => ⟨S106x96, .f32⟩
  | .local _ .vmem, ⟨13, _⟩ => ⟨S1x96, .f32⟩
  | .local _ .vmem, ⟨14, _⟩ => ⟨S224x1, .f32⟩
  | .local _ .vmem, ⟨15, _⟩ => ⟨S1x1, .f32⟩
  | .local _ .vmem, ⟨16, _⟩ => ⟨S1000x1, .f32⟩
  | .local _ .vmem, ⟨17, _⟩ => ⟨S1000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x10 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S106x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x96 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S224x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1000x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x96_S128x96_0_0 : ∀ a, (![0, 0] : Fin 2 → Nat) a + S128x96.size a ≤ S128x96.size a
  h_S128x96 : 0 < S128x96.numel
  inb_S2000x96_S2000x96_0_0 : ∀ a, (![0, 0] : Fin 2 → Nat) a + S2000x96.size a ≤ S2000x96.size a
  h_S2000x96 : 0 < S2000x96.numel
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  shapeCasts_S96_S1x96 : S96.ShapeCasts S1x96
  shapeCasts_S1_S1x1 : S1.ShapeCasts S1x1
  inb_S1000x96_S1000x96_0_0 : ∀ a, (![0, 0] : Fin 2 → Nat) a + S1000x96.size a ≤ S1000x96.size a
  h_S1000x96 : 0 < S1000x96.numel
  shapeCasts_S1000x96_S1000x96 : S1000x96.ShapeCasts S1000x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S1000x96 : S1x96.Broadcasts S1000x96
  inb_S1000x10_S1000x10_0_0 : ∀ a, (![0, 0] : Fin 2 → Nat) a + S1000x10.size a ≤ S1000x10.size a
  h_S1000x10 : 0 < S1000x10.numel
  concatenates_S1000x96_S1000x10_S1000x106_d1 : Shape.Concatenates [S1000x96, S1000x10] S1000x106 1
  inb_S106x96_S106x96_0_0 : ∀ a, (![0, 0] : Fin 2 → Nat) a + S106x96.size a ≤ S106x96.size a
  h_S106x96 : 0 < S106x96.numel
  inb_S1000x128_S1000x128_0_0 : ∀ a, (![0, 0] : Fin 2 → Nat) a + S1000x128.size a ≤ S1000x128.size a
  h_S1000x128 : 0 < S1000x128.numel
  concatenates_S1000x96_S1000x128_S1000x224_d1 : Shape.Concatenates [S1000x96, S1000x128] S1000x224 1
  inb_S224x1_S224x1_0_0 : ∀ a, (![0, 0] : Fin 2 → Nat) a + S224x1.size a ≤ S224x1.size a
  h_S224x1 : 0 < S224x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1000x1 : S1x1.Broadcasts S1000x1
  inb_S1000x1_S1000x1_0_0 : ∀ a, (![0, 0] : Fin 2 → Nat) a + S1000x1.size a ≤ S1000x1.size a
  h_S1000x1 : 0 < S1000x1.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x96_S2000x96_1_0_0_1_n_n_wf : DotDims.WF S2000x128 S128x96 S2000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S1000x106_S106x96_S1000x96_1_0_0_1_n_n_wf : DotDims.WF S1000x106 S106x96 S1000x96 [1] [0] [0] [1] [] []
  dot_S1000x224_S224x1_S1000x1_1_0_0_1_n_n_wf : DotDims.WF S1000x224 S224x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x96.size a ≤ S128x96.size a
  hwx0_1 : ∀ i : grid0.Coords, EltTy.bits .f32 = 32 ∨ (Rect.block (s := S128x96) S128x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x96.size a ≤ S50000x96.size a
  hwx0_2 : ∀ i : grid0.Coords, EltTy.bits .f32 = 32 ∨ (Rect.block (s := S50000x96) S2000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x96.size a ≤ S50000x96.size a
  hwx1_0 : ∀ i : grid1.Coords, EltTy.bits .f32 = 32 ∨ (Rect.block (s := S50000x96) S1000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x96.size a ≤ S1x96.size a
  hwx1_1 : ∀ i : grid1.Coords, EltTy.bits .f32 = 32 ∨ (Rect.block (s := S1x96) S1x96.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x10.size a ≤ S50000x10.size a
  hwx1_2 : ∀ i : grid1.Coords, EltTy.bits .f32 = 32 ∨ (Rect.block (s := S50000x10) S1000x10.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x128.size a ≤ S50000x128.size a
  hwx1_3 : ∀ i : grid1.Coords, EltTy.bits .f32 = 32 ∨ (Rect.block (s := S50000x128) S1000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S106x96.size a ≤ S106x96.size a
  hwx1_4 : ∀ i : grid1.Coords, EltTy.bits .f32 = 32 ∨ (Rect.block (s := S106x96) S106x96.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x96.size a ≤ S1x96.size a
  hwx1_5 : ∀ i : grid1.Coords, EltTy.bits .f32 = 32 ∨ (Rect.block (s := S1x96) S1x96.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S224x1.size a ≤ S224x1.size a
  hwx1_6 : ∀ i : grid1.Coords, EltTy.bits .f32 = 32 ∨ (Rect.block (s := S224x1) S224x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1000x1.size a ≤ S50000x1.size a
  hwx1_8 : ∀ i : grid1.Coords, EltTy.bits .f32 = 32 ∨ (Rect.block (s := S50000x1) S1000x1.size (cc1_transform_8 i) (hinb1_8 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x96_S2000x96_1_0_0_1_n_n : DotDims S2000x128 S128x96 S2000x96 where
  lhsContracting := [1]
  rhsContracting := [0]
  lhsNonContracting := [0]
  rhsNonContracting := [1]
  lhsBatch := []
  rhsBatch := []
  wf := dot_S2000x128_S128x96_S2000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S1000x106_S106x96_S1000x96_1_0_0_1_n_n : DotDims S1000x106 S106x96 S1000x96 where
  lhsContracting := [1]
  rhsContracting := [0]
  lhsNonContracting := [0]
  rhsNonContracting := [1]
  lhsBatch := []
  rhsBatch := []
  wf := dot_S1000x106_S106x96_S1000x96_1_0_0_1_n_n_wf
def dot_S1000x224_S224x1_S1000x1_1_0_0_1_n_n : DotDims S1000x224 S224x1 S1000x1 where
  lhsContracting := [1]
  rhsContracting := [0]
  lhsNonContracting := [0]
  rhsNonContracting := [1]
  lhsBatch := []
  rhsBatch := []
  wf := dot_S1000x224_S224x1_S1000x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S1000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1000x10.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S1000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S106x96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S1x96.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S224x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v46) S1x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v47) S1000x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000x10 : Shape := ⟨2, ![50000, 10]⟩
abbrev S128x96 : Shape := ⟨2, ![128, 96]⟩
abbrev S96 : Shape := ⟨1, ![96]⟩
abbrev S106x96 : Shape := ⟨2, ![106, 96]⟩
abbrev S224x1 : Shape := ⟨2, ![224, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x96 : Shape := ⟨2, ![50000, 96]⟩
abbrev S850000x96 : Shape := ⟨2, ![850000, 96]⟩
abbrev S1x96 : Shape := ⟨2, ![1, 96]⟩
abbrev S50000x106 : Shape := ⟨2, ![50000, 106]⟩
abbrev S50000x224 : Shape := ⟨2, ![50000, 224]⟩
abbrev S50000x1 : Shape := ⟨2, ![50000, 1]⟩
abbrev S1x1 : Shape := ⟨2, ![1, 1]⟩

abbrev nBuf : Space → Nat
  | .hbm => 88
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000x10, .f32⟩
  | .hbm, ⟨3, _⟩ => ⟨S128x96, .f32⟩
  | .hbm, ⟨4, _⟩ => ⟨S96, .f32⟩
  | .hbm, ⟨5, _⟩ => ⟨S106x96, .f32⟩
  | .hbm, ⟨6, _⟩ => ⟨S96, .f32⟩
  | .hbm, ⟨7, _⟩ => ⟨S224x1, .f32⟩
  | .hbm, ⟨8, _⟩ => ⟨S1, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x96, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x96, .f32⟩
  | .hbm, ⟨59, _⟩ => ⟨S850000x1, .f32⟩
  | .hbm, ⟨60, _⟩ => ⟨S850000x96, .f32⟩
  | .hbm, ⟨61, _⟩ => ⟨S850000x96, .f32⟩
  | .hbm, ⟨62, _⟩ => ⟨S_, .f32⟩
  | .hbm, ⟨63, _⟩ => ⟨S50000x96, .f32⟩
  | .hbm, ⟨64, _⟩ => ⟨S850000x1, .i32⟩
  | .hbm, ⟨65, _⟩ => ⟨S50000x96, .f32⟩
  | .hbm, ⟨66, _⟩ => ⟨S1x96, .f32⟩
  | .hbm, ⟨67, _⟩ => ⟨S50000x96, .f32⟩
  | .hbm, ⟨68, _⟩ => ⟨S50000x96, .f32⟩
  | .hbm, ⟨69, _⟩ => ⟨S_, .f32⟩
  | .hbm, ⟨70, _⟩ => ⟨S50000x96, .f32⟩
  | .hbm, ⟨71, _⟩ => ⟨S50000x96, .f32⟩
  | .hbm, ⟨72, _⟩ => ⟨S50000x106, .f32⟩
  | .hbm, ⟨73, _⟩ => ⟨S50000x96, .f32⟩
  | .hbm, ⟨74, _⟩ => ⟨S1x96, .f32⟩
  | .hbm, ⟨75, _⟩ => ⟨S50000x96, .f32⟩
  | .hbm, ⟨76, _⟩ => ⟨S50000x96, .f32⟩
  | .hbm, ⟨77, _⟩ => ⟨S_, .f32⟩
  | .hbm, ⟨78, _⟩ => ⟨S50000x96, .f32⟩
  | .hbm, ⟨79, _⟩ => ⟨S50000x96, .f32⟩
  | .hbm, ⟨80, _⟩ => ⟨S50000x224, .f32⟩
  | .hbm, ⟨81, _⟩ => ⟨S50000x1, .f32⟩
  | .hbm, ⟨82, _⟩ => ⟨S1x1, .f32⟩
  | .hbm, ⟨83, _⟩ => ⟨S50000x1, .f32⟩
  | .hbm, ⟨84, _⟩ => ⟨S50000x1, .f32⟩
  | .hbm, ⟨85, _⟩ => ⟨S_, .f32⟩
  | .hbm, ⟨86, _⟩ => ⟨S50000x1, .f32⟩
  | .hbm, ⟨87, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_call2_cst : Ref sig .tc := ⟨.hbm, 77, rfl⟩
abbrev main_call2_v0 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call3_cst : Ref sig .tc := ⟨.hbm, 85, rfl⟩
abbrev main_call3_v0 : Ref sig .tc := ⟨.hbm, 86, rfl⟩
abbrev main_v59 : Ref sig .tc := ⟨.hbm, 87, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  concatenates_S50000x96_S50000x10_S50000x106_d1 : Shape.Concatenates [S50000x96, S50000x10] S50000x106 1
  concatenates_S50000x96_S50000x128_S50000x224_d1 : Shape.Concatenates [S50000x96, S50000x128] S50000x224 1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x96_S50000x96_1_0_0_1_n_n_wf : DotDims.WF S50000x128 S128x96 S50000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S50000x106_S106x96_S50000x96_1_0_0_1_n_n_wf : DotDims.WF S50000x106 S106x96 S50000x96 [1] [0] [0] [1] [] []
  dot_S50000x224_S224x1_S50000x1_1_0_0_1_n_n_wf : DotDims.WF S50000x224 S224x1 S50000x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x96_S50000x96_1_0_0_1_n_n : DotDims S50000x128 S128x96 S50000x96 where
  lhsContracting := [1]
  rhsContracting := [0]
  lhsNonContracting := [0]
  rhsNonContracting := [1]
  lhsBatch := []
  rhsBatch := []
  wf := dot_S50000x128_S128x96_S50000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S50000x106_S106x96_S50000x96_1_0_0_1_n_n : DotDims S50000x106 S106x96 S50000x96 where
  lhsContracting := [1]
  rhsContracting := [0]
  lhsNonContracting := [0]
  rhsNonContracting := [1]
  lhsBatch := []
  rhsBatch := []
  wf := dot_S50000x106_S106x96_S50000x96_1_0_0_1_n_n_wf
def dot_S50000x224_S224x1_S50000x1_1_0_0_1_n_n : DotDims S50000x224 S224x1 S50000x1 where
  lhsContracting := [1]
  rhsContracting := [0]
  lhsNonContracting := [0]
  rhsNonContracting := [1]
  lhsBatch := []
  rhsBatch := []
  wf := dot_S50000x224_S224x1_S50000x1_1_0_0_1_n_n_wf

class Facts : Prop extends Facts₀ where

variable [Facts]
-- ==== Proof.RefRun.lean ====
/-
  The reference program's run, read stage by stage.

  @main of the reference is a straight line of 79 host operations (a called function's operations stand in its call's
  place). Every weakly fair execution terminates and each buffer ends at the fold of the operations' results over the
  launch contents. The fold is read here in five stretches, cut where an operation joins two arrays, so that each stretch
  is read from NAMED contents: the stretch up to the first join (the node numbering and the edges' sources as a flat
  list), up to the second (the sources with the self-loops appended; the destinations as a flat list), the graph
  convolution and its positive part, the first dense layer, and the second. After each stretch the buffers later
  stretches read hold the reference's stage of the same name (Proof/RefRead.lean: one function of the arguments per
  operation), and no stretch writes an argument. So the result buffer ends at the last stage, `val_main_v59` of the nine
  arguments.
-/
import proofs.«165970_j84602265796646_1_alg».proof.Proof.RefRead
import Idealize.ShloMosaic.Lib.StableHlo.Run

noncomputable section

namespace Cert.ReferenceIdeal.Staged

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-! ## The operations, in order, in five stretches -/

/-- The node numbering; the first row of the edge list, flattened. -/
abbrev opsA : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000 ]

/-- The edges' sources (the self-loops appended); the second row of the edge list, flattened. -/
abbrev opsB : List (HloOp τ sig (Elt F)) :=
  [ binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000 ]

/-- The edges' destinations, the degrees and the edges' weights, the projection, the aggregation, the bias and the
    positive part. -/
abbrev opsC : List (HloOp τ sig (Elt F)) :=
  [ binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select,
    nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v3 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v3 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)),
    binary main_arg0 main_arg3 main_v30 ((fun l r => Host.dotGeneral dot_S50000x128_S128x96_S50000x96_1_0_0_1_n_n none l r) : (⟨S50000x128, .f32⟩ : BufTy).Contents (Elt F) → (⟨S128x96, .f32⟩ : BufTy).Contents (Elt F) → (⟨S50000x96, .f32⟩ : BufTy).Contents (Elt F)),
    nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v3 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v3 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v30 main_v36 main_v37 ((fun x i => Host.gather gather_S50000x96_S850000x1_S850000x96_1_0_n_n_0_1_196 x i) : (⟨S50000x96, .f32⟩ : BufTy).Contents (Elt F) → (⟨S850000x1, .i32⟩ : BufTy).Contents (Elt F) → (⟨S850000x96, .f32⟩ : BufTy).Contents (Elt F)),
    unary main_v29 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x96 ![0, 1] bcast_S850000x1_S850000x96_0_1 : (⟨S850000x1, .f32⟩ : BufTy).Contents (Elt F) → (⟨S850000x96, .f32⟩ : BufTy).Contents (Elt F)),
    binary main_v37 main_v39 main_v40 (mulf : (⟨S850000x96, .f32⟩ : BufTy).Contents (Elt F) → (⟨S850000x96, .f32⟩ : BufTy).Contents (Elt F) → (⟨S850000x96, .f32⟩ : BufTy).Contents (Elt F)),
    nullary main_cst_8 (constant S_ .f32 0x00000000#32),
    unary main_cst_8 main_v41 (broadcastInDim S50000x96 ![] bcast_S_S50000x96 : (⟨S_, .f32⟩ : BufTy).Contents (Elt F) → (⟨S50000x96, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x96_S850000x1_S850000x96_1_0_0_1 x i u) : (⟨S50000x96, .f32⟩ : BufTy).Contents (Elt F) → (⟨S850000x1, .i32⟩ : BufTy).Contents (Elt F) → (⟨S850000x96, .f32⟩ : BufTy).Contents (Elt F) → (⟨S50000x96, .f32⟩ : BufTy).Contents (Elt F)),
    unary main_arg4 main_v44 (broadcastInDim S1x96 ![1] bcast_S96_S1x96_1 : (⟨S96, .f32⟩ : BufTy).Contents (Elt F) → (⟨S1x96, .f32⟩ : BufTy).Contents (Elt F)),
    unary main_v44 main_v45 (broadcastInDim S50000x96 ![0, 1] bcast_S1x96_S50000x96_0_1 : (⟨S1x96, .f32⟩ : BufTy).Contents (Elt F) → (⟨S50000x96, .f32⟩ : BufTy).Contents (Elt F)),
    binary main_v43 main_v45 main_v46 (addf : (⟨S50000x96, .f32⟩ : BufTy).Contents (Elt F) → (⟨S50000x96, .f32⟩ : BufTy).Contents (Elt F) → (⟨S50000x96, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x96, .f32⟩) main_call1_v0) (broadcastInDim S50000x96 ![] bcast_S_S50000x96),
    TRef.binary (TRef.of (T := ⟨S50000x96, .f32⟩) main_v46) (TRef.of (T := ⟨S50000x96, .f32⟩) main_call1_v0) (TRef.of (T := ⟨S50000x96, .f32⟩) main_v47) maximumf ]

/-- The join with the temporal features and the first dense layer. -/
abbrev opsD : List (HloOp τ sig (Elt F)) :=
  [ binary main_v47 main_arg2 main_v48 ((fun a b => concatenate S50000x106 1 [⟨S50000x96, a⟩, ⟨S50000x10, b⟩] concatenates_S50000x96_S50000x10_S50000x106_d1) : (⟨S50000x96, .f32⟩ : BufTy).Contents (Elt F) → (⟨S50000x10, .f32⟩ : BufTy).Contents (Elt F) → (⟨S50000x106, .f32⟩ : BufTy).Contents (Elt F)),
    binary main_v48 main_arg5 main_v49 ((fun l r => Host.dotGeneral dot_S50000x106_S106x96_S50000x96_1_0_0_1_n_n none l r) : (⟨S50000x106, .f32⟩ : BufTy).Contents (Elt F) → (⟨S106x96, .f32⟩ : BufTy).Contents (Elt F) → (⟨S50000x96, .f32⟩ : BufTy).Contents (Elt F)),
    unary main_arg6 main_v50 (broadcastInDim S1x96 ![1] bcast_S96_S1x96_1 : (⟨S96, .f32⟩ : BufTy).Contents (Elt F) → (⟨S1x96, .f32⟩ : BufTy).Contents (Elt F)),
    unary main_v50 main_v51 (broadcastInDim S50000x96 ![0, 1] bcast_S1x96_S50000x96_0_1 : (⟨S1x96, .f32⟩ : BufTy).Contents (Elt F) → (⟨S50000x96, .f32⟩ : BufTy).Contents (Elt F)),
    binary main_v49 main_v51 main_v52 (addf : (⟨S50000x96, .f32⟩ : BufTy).Contents (Elt F) → (⟨S50000x96, .f32⟩ : BufTy).Contents (Elt F) → (⟨S50000x96, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x96, .f32⟩) main_call2_v0) (broadcastInDim S50000x96 ![] bcast_S_S50000x96),
    TRef.binary (TRef.of (T := ⟨S50000x96, .f32⟩) main_v52) (TRef.of (T := ⟨S50000x96, .f32⟩) main_call2_v0) (TRef.of (T := ⟨S50000x96, .f32⟩) main_v53) maximumf ]

/-- The join with the input features and the second dense layer. -/
abbrev opsE : List (HloOp τ sig (Elt F)) :=
  [ binary main_v53 main_arg0 main_v54 ((fun a b => concatenate S50000x224 1 [⟨S50000x96, a⟩, ⟨S50000x128, b⟩] concatenates_S50000x96_S50000x128_S50000x224_d1) : (⟨S50000x96, .f32⟩ : BufTy).Contents (Elt F) → (⟨S50000x128, .f32⟩ : BufTy).Contents (Elt F) → (⟨S50000x224, .f32⟩ : BufTy).Contents (Elt F)),
    binary main_v54 main_arg7 main_v55 ((fun l r => Host.dotGeneral dot_S50000x224_S224x1_S50000x1_1_0_0_1_n_n none l r) : (⟨S50000x224, .f32⟩ : BufTy).Contents (Elt F) → (⟨S224x1, .f32⟩ : BufTy).Contents (Elt F) → (⟨S50000x1, .f32⟩ : BufTy).Contents (Elt F)),
    unary main_arg8 main_v56 (broadcastInDim S1x1 ![1] bcast_S1_S1x1_1 : (⟨S1, .f32⟩ : BufTy).Contents (Elt F) → (⟨S1x1, .f32⟩ : BufTy).Contents (Elt F)),
    unary main_v56 main_v57 (broadcastInDim S50000x1 ![0, 1] bcast_S1x1_S50000x1_0_1 : (⟨S1x1, .f32⟩ : BufTy).Contents (Elt F) → (⟨S50000x1, .f32⟩ : BufTy).Contents (Elt F)),
    binary main_v55 main_v57 main_v58 (addf : (⟨S50000x1, .f32⟩ : BufTy).Contents (Elt F) → (⟨S50000x1, .f32⟩ : BufTy).Contents (Elt F) → (⟨S50000x1, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x1, .f32⟩) main_call3_v0) (broadcastInDim S50000x1 ![] bcast_S_S50000x1),
    TRef.binary (TRef.of (T := ⟨S50000x1, .f32⟩) main_v58) (TRef.of (T := ⟨S50000x1, .f32⟩) main_call3_v0) (TRef.of (T := ⟨S50000x1, .f32⟩) main_v59) maximumf ]

/-- @main's 79 operations, in order. -/
abbrev ops : List (HloOp τ sig (Elt F)) := opsA ++ (opsB ++ (opsC ++ (opsD ++ opsE)))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., unary_bufs_sub .., binary_bufs_sub ..⟩

/-! ## The fold of two stretches is the fold of the second over the fold of the first -/

theorem after_append : ∀ (l₁ l₂ : List (HloOp τ sig (Elt F))) (V : Valuation τ sig (Elt F)),
    after (l₁ ++ l₂) V = after l₂ (after l₁ V)
  | [], _, _ => rfl
  | op :: l, l₂, V => by rw [List.cons_append, after_cons, after_cons, after_append l l₂]

/-! ## No stretch writes an argument -/

theorem keepA (V : Valuation τ sig (Elt F)) (b : Ref sig .tc)
    (hb : b = main_arg0 ∨ b = main_arg1 ∨ b = main_arg2 ∨ b = main_arg3 ∨ b = main_arg4 ∨ b = main_arg5 ∨ b = main_arg6 ∨ b = main_arg7 ∨ b = main_arg8) :
    after (opsA (F := F)) V (Proc.devRef .tc b) = V (Proc.devRef .tc b) := by
  rcases hb with rfl | rfl | rfl | rfl | rfl | rfl | rfl | rfl | rfl <;> (after_results_simp <;> rfl)
theorem keepB (V : Valuation τ sig (Elt F)) (b : Ref sig .tc)
    (hb : b = main_arg0 ∨ b = main_arg1 ∨ b = main_arg2 ∨ b = main_arg3 ∨ b = main_arg4 ∨ b = main_arg5 ∨ b = main_arg6 ∨ b = main_arg7 ∨ b = main_arg8) :
    after (opsB (F := F)) V (Proc.devRef .tc b) = V (Proc.devRef .tc b) := by
  rcases hb with rfl | rfl | rfl | rfl | rfl | rfl | rfl | rfl | rfl <;> (after_results_simp <;> rfl)
theorem keepC (V : Valuation τ sig (Elt F)) (b : Ref sig .tc)
    (hb : b = main_arg0 ∨ b = main_arg1 ∨ b = main_arg2 ∨ b = main_arg3 ∨ b = main_arg4 ∨ b = main_arg5 ∨ b = main_arg6 ∨ b = main_arg7 ∨ b = main_arg8) :
    after (opsC (F := F)) V (Proc.devRef .tc b) = V (Proc.devRef .tc b) := by
  rcases hb with rfl | rfl | rfl | rfl | rfl | rfl | rfl | rfl | rfl <;> (after_results_simp <;> rfl)
theorem keepD (V : Valuation τ sig (Elt F)) (b : Ref sig .tc)
    (hb : b = main_arg0 ∨ b = main_arg1 ∨ b = main_arg2 ∨ b = main_arg3 ∨ b = main_arg4 ∨ b = main_arg5 ∨ b = main_arg6 ∨ b = main_arg7 ∨ b = main_arg8) :
    after (opsD (F := F)) V (Proc.devRef .tc b) = V (Proc.devRef .tc b) := by
  rcases hb with rfl | rfl | rfl | rfl | rfl | rfl | rfl | rfl | rfl <;> (after_results_simp <;> rfl)
theorem keepE (V : Valuation τ sig (Elt F)) (b : Ref sig .tc)
    (hb : b = main_arg0 ∨ b = main_arg1 ∨ b = main_arg2 ∨ b = main_arg3 ∨ b = main_arg4 ∨ b = main_arg5 ∨ b = main_arg6 ∨ b = main_arg7 ∨ b = main_arg8) :
    after (opsE (F := F)) V (Proc.devRef .tc b) = V (Proc.devRef .tc b) := by
  rcases hb with rfl | rfl | rfl | rfl | rfl | rfl | rfl | rfl | rfl <;> (after_results_simp <;> rfl)

/-! ## What each stretch leaves, from named contents -/

variable (x0 : (⟨S50000x128, .f32⟩ : BufTy).Contents (Elt F)) (x1 : (⟨S2x800000, .i32⟩ : BufTy).Contents (Elt F))
  (x2 : (⟨S50000x10, .f32⟩ : BufTy).Contents (Elt F)) (x3 : (⟨S128x96, .f32⟩ : BufTy).Contents (Elt F))
  (x4 : (⟨S96, .f32⟩ : BufTy).Contents (Elt F)) (x5 : (⟨S106x96, .f32⟩ : BufTy).Contents (Elt F))
  (x6 : (⟨S96, .f32⟩ : BufTy).Contents (Elt F)) (x7 : (⟨S224x1, .f32⟩ : BufTy).Contents (Elt F))
  (x8 : (⟨S1, .f32⟩ : BufTy).Contents (Elt F))

/-- The node numbering. -/
theorem a_nodes (V : Valuation τ sig (Elt F)) : after (opsA (F := F)) V (Proc.devRef .tc main_v0) = val_main_v0 (F := F) := by
  after_results_simp <;> rfl

/-- The first row of the edge list, flattened. -/
theorem a_row0 (V : Valuation τ sig (Elt F)) (h1 : V (Proc.devRef .tc main_arg1) = x1) :
    after (opsA (F := F)) V (Proc.devRef .tc main_v2) = val_main_v2 (F := F) x1 := by
  after_results_simp
  rw [h1]
  rfl

/-- The node numbering is not written again. -/
theorem b_nodes (V : Valuation τ sig (Elt F)) : after (opsB (F := F)) V (Proc.devRef .tc main_v0) = V (Proc.devRef .tc main_v0) := by
  after_results_simp <;> rfl

/-- The edges' sources. -/
theorem b_src (V : Valuation τ sig (Elt F)) (h2 : V (Proc.devRef .tc main_v2) = val_main_v2 (F := F) x1)
    (h0 : V (Proc.devRef .tc main_v0) = val_main_v0 (F := F)) :
    after (opsB (F := F)) V (Proc.devRef .tc main_v3) = val_main_v3 (F := F) x1 := by
  after_results_simp
  rw [h2, h0]
  rfl

/-- The second row of the edge list, flattened. -/
theorem b_row1 (V : Valuation τ sig (Elt F)) (h1 : V (Proc.devRef .tc main_arg1) = x1) :
    after (opsB (F := F)) V (Proc.devRef .tc main_v5) = val_main_v5 (F := F) x1 := by
  after_results_simp
  rw [h1]
  rfl

set_option maxHeartbeats 4000000 in
/-- The graph convolution with its bias and positive part. -/
theorem c_conv (V : Valuation τ sig (Elt F)) (h3 : V (Proc.devRef .tc main_v3) = val_main_v3 (F := F) x1)
    (h5 : V (Proc.devRef .tc main_v5) = val_main_v5 (F := F) x1) (h0 : V (Proc.devRef .tc main_v0) = val_main_v0 (F := F))
    (ha0 : V (Proc.devRef .tc main_arg0) = x0) (ha3 : V (Proc.devRef .tc main_arg3) = x3) (ha4 : V (Proc.devRef .tc main_arg4) = x4) :
    after (opsC (F := F)) V (Proc.devRef .tc main_v47) = val_main_v47 (F := F) x0 x1 x3 x4 := by
  after_results_simp
  rw [h3, h5, h0, ha0, ha3, ha4]
  rfl

/-- The first dense layer. -/
theorem d_dense (V : Valuation τ sig (Elt F)) (h47 : V (Proc.devRef .tc main_v47) = val_main_v47 (F := F) x0 x1 x3 x4)
    (ha2 : V (Proc.devRef .tc main_arg2) = x2) (ha5 : V (Proc.devRef .tc main_arg5) = x5) (ha6 : V (Proc.devRef .tc main_arg6) = x6) :
    after (opsD (F := F)) V (Proc.devRef .tc main_v53) = val_main_v53 (F := F) x0 x1 x2 x3 x4 x5 x6 := by
  after_results_simp
  rw [h47, ha2, ha5, ha6]
  rfl

/-- The second dense layer. -/
theorem e_dense (V : Valuation τ sig (Elt F)) (h53 : V (Proc.devRef .tc main_v53) = val_main_v53 (F := F) x0 x1 x2 x3 x4 x5 x6)
    (ha0 : V (Proc.devRef .tc main_arg0) = x0) (ha7 : V (Proc.devRef .tc main_arg7) = x7) (ha8 : V (Proc.devRef .tc main_arg8) = x8) :
    after (opsE (F := F)) V (Proc.devRef .tc main_v59) = val_main_v59 (F := F) x0 x1 x2 x3 x4 x5 x6 x7 x8 := by
  after_results_simp
  rw [h53, ha0, ha7, ha8]
  rfl

/-! ## The whole fold -/

/-- After all 79 operations the result buffer holds the last stage of the launch contents' arguments. -/
theorem result_eq (L : Valuation τ sig (Elt F)) :
    after (ops (F := F)) L (Proc.devRef .tc main_v59)
      = val_main_v59 (F := F) (L (Proc.devRef .tc main_arg0)) (L (Proc.devRef .tc main_arg1)) (L (Proc.devRef .tc main_arg2))
          (L (Proc.devRef .tc main_arg3)) (L (Proc.devRef .tc main_arg4)) (L (Proc.devRef .tc main_arg5))
          (L (Proc.devRef .tc main_arg6)) (L (Proc.devRef .tc main_arg7)) (L (Proc.devRef .tc main_arg8)) := by
  show after (opsA ++ (opsB ++ (opsC ++ (opsD ++ opsE)))) L _ = _
  rw [after_append, after_append, after_append, after_append]
  -- the contents after each stretch, by name
  have kA := fun b hb => keepA (F := F) L b hb
  have kB := fun b hb => (keepB (F := F) (after opsA L) b hb).trans (kA b hb)
  have kC := fun b hb => (keepC (F := F) (after opsB (after opsA L)) b hb).trans (kB b hb)
  have kD := fun b hb => (keepD (F := F) (after opsC (after opsB (after opsA L))) b hb).trans (kC b hb)
  have hA2 := a_row0 (F := F) _ L rfl
  have hA0 := a_nodes (F := F) L
  have hB3 := b_src (F := F) _ (after opsA L) hA2 hA0
  have hB5 := b_row1 (F := F) _ (after opsA L) (kA main_arg1 (by simp))
  have hB0 := (b_nodes (F := F) (after opsA L)).trans hA0
  have hC := c_conv (F := F) _ _ _ _ (after opsB (after opsA L)) hB3 hB5 hB0 (kB main_arg0 (by simp)) (kB main_arg3 (by simp)) (kB main_arg4 (by simp))
  have hD := d_dense (F := F) _ _ _ _ _ _ _ (after opsC (after opsB (after opsA L))) hC (kC main_arg2 (by simp)) (kC main_arg5 (by simp)) (kC main_arg6 (by simp))
  exact e_dense (F := F) _ _ _ _ _ _ _ _ _ (after opsD (after opsC (after opsB (after opsA L)))) hD (kD main_arg0 (by simp)) (kD main_arg7 (by simp)) (kD main_arg8 (by simp))

/-- After all 79 operations an argument is as launched. -/
theorem arg_eq (L : Valuation τ sig (Elt F)) (b : Ref sig .tc)
    (hb : b = main_arg0 ∨ b = main_arg1 ∨ b = main_arg2 ∨ b = main_arg3 ∨ b = main_arg4 ∨ b = main_arg5 ∨ b = main_arg6 ∨ b = main_arg7 ∨ b = main_arg8) :
    after (ops (F := F)) L (Proc.devRef .tc b) = L (Proc.devRef .tc b) := by
  show after (opsA ++ (opsB ++ (opsC ++ (opsD ++ opsE)))) L _ = _
  rw [after_append, after_append, after_append, after_append]
  exact (keepE _ b hb).trans ((keepD _ b hb).trans ((keepC _ b hb).trans ((keepB _ b hb).trans (keepA L b hb))))

/-! ## The run -/

/-- On every device, for any float values, from any memory with zero counters: every weakly fair execution of @main
    terminates with the result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v59)
        = val_main_v59 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v59).trans (result_eq (launchContents m c)),
      (h c main_arg0).trans (arg_eq (launchContents m c) main_arg0 (by simp)),
      (h c main_arg1).trans (arg_eq (launchContents m c) main_arg1 (by simp)),
      (h c main_arg2).trans (arg_eq (launchContents m c) main_arg2 (by simp)),
      (h c main_arg3).trans (arg_eq (launchContents m c) main_arg3 (by simp)),
      (h c main_arg4).trans (arg_eq (launchContents m c) main_arg4 (by simp)),
      (h c main_arg5).trans (arg_eq (launchContents m c) main_arg5 (by simp)),
      (h c main_arg6).trans (arg_eq (launchContents m c) main_arg6 (by simp)),
      (h c main_arg7).trans (arg_eq (launchContents m c) main_arg7 (by simp)),
      (h c main_arg8).trans (arg_eq (launchContents m c) main_arg8 (by simp))⟩)
    (run_seq scopedRefs_eq scopedSems_eq defs main (fun _ => ops) main_eq (fun _ => ops_sub) m ρ)

end Cert.ReferenceIdeal.Staged

end
-- ==== Proof.HostMid.lean ====
/-
  What the host operations of the kernel program leave before its first kernel, as the reference's own stages.

  Outside its two kernels the kernel program runs, line for line, the host operations the reference runs. Before the
  first kernel: the node numbering, the source and destination node of every edge (the edge list followed by one
  self-loop per node), the degrees by a scatter-add of ones, their inverse square roots where the degree is positive,
  and the weight of every edge. The fold of these operations over the launch contents is read in stretches cut where
  an operation joins two arrays, each stretch from NAMED contents; after each, the buffers later operations read hold
  the reference's stage of the same name (the reference's stages are functions of the argument arrays, one per
  operation: Proof/RefRead.lean), and no operation writes an argument. So when the first kernel's region is entered the
  sources, the destinations and the weights are the reference's, and the arguments are as launched.
-/
import proofs.«165970_j84602265796646_1_alg».proof.Proof.Gen.KernelIdeal.Frame
import proofs.«165970_j84602265796646_1_alg».proof.Proof.RefRead
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo
open Cert.ReferenceIdeal.ReadP

variable {F : FTy → Type} [FloatOps F]

/-! ## The first stretch of host operations, cut at its two joins -/

/-- The node numbering; the first row of the edge list, flattened. -/
abbrev hostA : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000 ]

/-- The edges' sources (the self-loops appended); the second row of the edge list, flattened. -/
abbrev hostB : List (HloOp τ sig (Elt F)) :=
  [ StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000 ]

/-- The edges' destinations, the degrees, whether each is positive, and their inverse square roots. -/
abbrev hostC : List (HloOp τ sig (Elt F)) :=
  [ StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32) ]

theorem hostOps0_cut : (hostOps0 : List (HloOp τ sig (Elt F))) = hostA ++ (hostB ++ hostC) := rfl

/-- The fold of two stretches is the fold of the second over the fold of the first. -/
theorem after_append : ∀ (l₁ l₂ : List (HloOp τ sig (Elt F))) (V : Valuation τ sig (Elt F)),
    after (l₁ ++ l₂) V = after l₂ (after l₁ V)
  | [], _, _ => rfl
  | op :: l, l₂, V => by rw [List.cons_append, after_cons, after_cons, after_append l l₂]

/-! ## What no stretch writes -/

theorem keepA (V : Valuation τ sig (Elt F)) (b : Ref sig .tc)
    (hb : b = main_arg0 ∨ b = main_arg1 ∨ b = main_arg2 ∨ b = main_arg3 ∨ b = main_arg4 ∨ b = main_arg5 ∨ b = main_arg6 ∨ b = main_arg7 ∨ b = main_arg8) :
    after (hostA (F := F)) V (Proc.devRef .tc b) = V (Proc.devRef .tc b) := by
  rcases hb with rfl | rfl | rfl | rfl | rfl | rfl | rfl | rfl | rfl <;> (after_results_simp <;> rfl)
theorem keepB (V : Valuation τ sig (Elt F)) (b : Ref sig .tc)
    (hb : b = main_arg0 ∨ b = main_arg1 ∨ b = main_arg2 ∨ b = main_arg3 ∨ b = main_arg4 ∨ b = main_arg5 ∨ b = main_arg6 ∨ b = main_arg7 ∨ b = main_arg8 ∨ b = main_v0) :
    after (hostB (F := F)) V (Proc.devRef .tc b) = V (Proc.devRef .tc b) := by
  rcases hb with rfl | rfl | rfl | rfl | rfl | rfl | rfl | rfl | rfl | rfl <;> (after_results_simp <;> rfl)
theorem keepC (V : Valuation τ sig (Elt F)) (b : Ref sig .tc)
    (hb : b = main_arg0 ∨ b = main_arg1 ∨ b = main_arg2 ∨ b = main_arg3 ∨ b = main_arg4 ∨ b = main_arg5 ∨ b = main_arg6 ∨ b = main_arg7 ∨ b = main_arg8 ∨ b = main_v3) :
    after (hostC (F := F)) V (Proc.devRef .tc b) = V (Proc.devRef .tc b) := by
  rcases hb with rfl | rfl | rfl | rfl | rfl | rfl | rfl | rfl | rfl | rfl <;> (after_results_simp <;> rfl)
theorem keep01 (V : Valuation τ sig (Elt F)) (b : Ref sig .tc)
    (hb : b = main_arg0 ∨ b = main_arg1 ∨ b = main_arg2 ∨ b = main_arg3 ∨ b = main_arg4 ∨ b = main_arg5 ∨ b = main_arg6 ∨ b = main_arg7 ∨ b = main_arg8 ∨ b = main_v3 ∨ b = main_v6) :
    after (hostOps0_1 (F := F)) V (Proc.devRef .tc b) = V (Proc.devRef .tc b) := by
  rcases hb with rfl | rfl | rfl | rfl | rfl | rfl | rfl | rfl | rfl | rfl | rfl <;> (after_results_simp <;> rfl)
theorem keep02 (V : Valuation τ sig (Elt F)) (b : Ref sig .tc)
    (hb : b = main_arg0 ∨ b = main_arg1 ∨ b = main_arg2 ∨ b = main_arg3 ∨ b = main_arg4 ∨ b = main_arg5 ∨ b = main_arg6 ∨ b = main_arg7 ∨ b = main_arg8 ∨ b = main_v3 ∨ b = main_v6) :
    after (hostOps0_2 (F := F)) V (Proc.devRef .tc b) = V (Proc.devRef .tc b) := by
  rcases hb with rfl | rfl | rfl | rfl | rfl | rfl | rfl | rfl | rfl | rfl | rfl <;> (after_results_simp <;> rfl)
theorem keep1 (V : Valuation τ sig (Elt F)) (b : Ref sig .tc)
    (hb : b = main_arg0 ∨ b = main_arg1 ∨ b = main_arg2 ∨ b = main_arg3 ∨ b = main_arg4 ∨ b = main_arg5 ∨ b = main_arg6 ∨ b = main_arg7 ∨ b = main_arg8) :
    after (hostOps1 (F := F)) V (Proc.devRef .tc b) = V (Proc.devRef .tc b) := by
  rcases hb with rfl | rfl | rfl | rfl | rfl | rfl | rfl | rfl | rfl <;> (after_results_simp <;> rfl)

/-! ## What each stretch leaves, from named contents -/

variable (x1 : (⟨Cert.ReferenceIdeal.S2x800000, .i32⟩ : BufTy).Contents (Elt F))

/-- The node numbering. -/
theorem a_nodes (V : Valuation τ sig (Elt F)) : after (hostA (F := F)) V (Proc.devRef .tc main_v0) = val_main_v0 (F := F) := by
  after_results_simp <;> rfl

/-- The first row of the edge list, flattened. -/
theorem a_row0 (V : Valuation τ sig (Elt F)) (h1 : V (Proc.devRef .tc main_arg1) = x1) :
    after (hostA (F := F)) V (Proc.devRef .tc main_v2) = val_main_v2 (F := F) x1 := by
  after_results_simp
  rw [h1]
  rfl

/-- The edges' sources. -/
theorem b_src (V : Valuation τ sig (Elt F)) (h2 : V (Proc.devRef .tc main_v2) = val_main_v2 (F := F) x1)
    (h0 : V (Proc.devRef .tc main_v0) = val_main_v0 (F := F)) :
    after (hostB (F := F)) V (Proc.devRef .tc main_v3) = val_main_v3 (F := F) x1 := by
  after_results_simp
  rw [h2, h0]
  rfl

/-- The second row of the edge list, flattened. -/
theorem b_row1 (V : Valuation τ sig (Elt F)) (h1 : V (Proc.devRef .tc main_arg1) = x1) :
    after (hostB (F := F)) V (Proc.devRef .tc main_v5) = val_main_v5 (F := F) x1 := by
  after_results_simp
  rw [h1]
  rfl

/-- The edges' destinations. -/
theorem c_dst (V : Valuation τ sig (Elt F)) (h5 : V (Proc.devRef .tc main_v5) = val_main_v5 (F := F) x1)
    (h0 : V (Proc.devRef .tc main_v0) = val_main_v0 (F := F)) :
    after (hostC (F := F)) V (Proc.devRef .tc main_v6) = val_main_v6 (F := F) x1 := by
  after_results_simp
  rw [h5, h0]
  rfl

/-- Whether each degree is positive. -/
theorem c_pos (V : Valuation τ sig (Elt F)) (h5 : V (Proc.devRef .tc main_v5) = val_main_v5 (F := F) x1)
    (h0 : V (Proc.devRef .tc main_v0) = val_main_v0 (F := F)) :
    after (hostC (F := F)) V (Proc.devRef .tc main_v12) = val_main_v12 (F := F) x1 := by
  after_results_simp
  rw [h5, h0]
  rfl

/-- The degrees' inverse square roots. -/
theorem c_rsqrt (V : Valuation τ sig (Elt F)) (h5 : V (Proc.devRef .tc main_v5) = val_main_v5 (F := F) x1)
    (h0 : V (Proc.devRef .tc main_v0) = val_main_v0 (F := F)) :
    after (hostC (F := F)) V (Proc.devRef .tc main_v13) = val_main_v13 (F := F) x1 := by
  after_results_simp
  rw [h5, h0]
  rfl

/-- The zero the inverse square root of a zero degree is replaced by. -/
theorem c_zero (V : Valuation τ sig (Elt F)) : after (hostC (F := F)) V (Proc.devRef .tc main_cst_2) = val_main_cst_2 (F := F) := by
  after_results_simp <;> rfl

/-- The inverse square roots of the positive degrees, zero elsewhere. -/
theorem where_dinv (V : Valuation τ sig (Elt F)) (h12 : V (Proc.devRef .tc main_v12) = val_main_v12 (F := F) x1)
    (h13 : V (Proc.devRef .tc main_v13) = val_main_v13 (F := F) x1) (hz : V (Proc.devRef .tc main_cst_2) = val_main_cst_2 (F := F)) :
    after (hostOps0_1 (F := F)) V (Proc.devRef .tc main_v14) = val_main_v14 (F := F) x1 := by
  after_results_simp
  rw [h12, h13, hz]
  rfl

/-- The edges' weights. -/
theorem weights (V : Valuation τ sig (Elt F)) (h3 : V (Proc.devRef .tc main_v3) = val_main_v3 (F := F) x1)
    (h6 : V (Proc.devRef .tc main_v6) = val_main_v6 (F := F) x1) (h14 : V (Proc.devRef .tc main_v14) = val_main_v14 (F := F) x1) :
    after (hostOps0_2 (F := F)) V (Proc.devRef .tc main_v29) = val_main_v29 (F := F) x1 := by
  after_results_simp
  rw [h3, h6, h14]
  rfl

/-! ## When the first region is entered -/

variable (m : (ℓ : Loc nD τ sig) → Buf (Elt F) ℓ) (ρ : Dev nD → PrngReg) (c : Dev nD)

/-- The contents at the first region's entry, as the fold of the five stretches. -/
theorem W3_cut : W3 m ρ c = after hostOps0_2 (after hostOps0_1 (after hostC (after hostB (after hostA (W0 m ρ c))))) := by
  show after hostOps0_2 (after hostOps0_1 (after hostOps0 (W0 m ρ c))) = _
  rw [hostOps0_cut, after_append, after_append]

/-- An argument array is as launched when the first region is entered. -/
theorem W3_arg (b : Ref sig .tc) (hb : b = main_arg0 ∨ b = main_arg1 ∨ b = main_arg2 ∨ b = main_arg3 ∨ b = main_arg4 ∨ b = main_arg5 ∨ b = main_arg6 ∨ b = main_arg7 ∨ b = main_arg8) :
    W3 m ρ c (Proc.devRef .tc b) = m ((c : Thread nD τ).loc b) := by
  rw [W3_cut]
  rcases hb with rfl | rfl | rfl | rfl | rfl | rfl | rfl | rfl | rfl <;>
    exact (keep02 _ _ (by simp)).trans ((keep01 _ _ (by simp)).trans ((keepC _ _ (by simp)).trans
      ((keepB _ _ (by simp)).trans (keepA _ _ (by simp)))))

/-- The edges' sources, destinations and weights at the first region's entry are the reference's. -/
theorem W3_edges : W3 m ρ c (Proc.devRef .tc main_v3) = val_main_v3 (F := F) (m ((c : Thread nD τ).loc main_arg1))
    ∧ W3 m ρ c (Proc.devRef .tc main_v6) = val_main_v6 (F := F) (m ((c : Thread nD τ).loc main_arg1))
    ∧ W3 m ρ c (Proc.devRef .tc main_v29) = val_main_v29 (F := F) (m ((c : Thread nD τ).loc main_arg1)) := by
  rw [W3_cut]
  have hA1 : after hostA (W0 m ρ c) (Proc.devRef .tc main_arg1) = m ((c : Thread nD τ).loc main_arg1) := keepA _ main_arg1 (by simp)
  have hA2 := a_row0 (F := F) (m ((c : Thread nD τ).loc main_arg1)) (W0 m ρ c) rfl
  have hA0 := a_nodes (F := F) (W0 m ρ c)
  have hB3 := b_src (F := F) _ (after hostA (W0 m ρ c)) hA2 hA0
  have hB5 := b_row1 (F := F) _ (after hostA (W0 m ρ c)) hA1
  have hB0 := (keepB (F := F) (after hostA (W0 m ρ c)) main_v0 (by simp)).trans hA0
  have hC6 := c_dst (F := F) _ (after hostB (after hostA (W0 m ρ c))) hB5 hB0
  have hC12 := c_pos (F := F) _ (after hostB (after hostA (W0 m ρ c))) hB5 hB0
  have hC13 := c_rsqrt (F := F) _ (after hostB (after hostA (W0 m ρ c))) hB5 hB0
  have hCz := c_zero (F := F) (after hostB (after hostA (W0 m ρ c)))
  have hC3 := (keepC (F := F) (after hostB (after hostA (W0 m ρ c))) main_v3 (by simp)).trans hB3
  have hD14 := where_dinv (F := F) _ (after hostC (after hostB (after hostA (W0 m ρ c)))) hC12 hC13 hCz
  have hD3 := (keep01 (F := F) (after hostC (after hostB (after hostA (W0 m ρ c)))) main_v3 (by simp)).trans hC3
  have hD6 := (keep01 (F := F) (after hostC (after hostB (after hostA (W0 m ρ c)))) main_v6 (by simp)).trans hC6
  exact ⟨(keep02 _ main_v3 (by simp)).trans hD3, (keep02 _ main_v6 (by simp)).trans hD6, weights _ _ hD3 hD6 hD14⟩

end Cert.KernelIdeal.Hand

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.LinBlock.lean ====
/-
  What the first kernel's body stores, read at one entry.

  The body takes a block of 2000 rows of `x` (2000 × 128) and the whole weight matrix (128 × 96), rounds both to bf16 —
  the identity on the extended reals — and multiplies them into a zero accumulator: entry `(r, q)` of the stored block is
  row `r` of the block of `x` against column `q` of the weights.
-/
import proofs.«165970_j84602265796646_1_alg».proof.Proof.Gen.KernelIdeal.Skeleton
import proofs.«165970_j84602265796646_1_alg».proof.Proof.LibMatDot

noncomputable section

namespace Cert.KernelIdeal.Hand

open Cert.KernelIdeal Cert.KernelIdeal.Gen Idealize.ShloMosaic Idealize.ShloMosaic.ValueIdx Cert.Lib
open scoped BigOperators

/-- The projection's product is rows against columns. -/
theorem dot0_eq : dot_S2000x128_S128x96_S2000x96_1_0_0_1_n_n = matDot dot_S2000x128_S128x96_S2000x96_1_0_0_1_n_n_wf := rfl

/-- Entry `(r, q)` of the block the body stores: the row-by-column sum. -/
theorem lin_block_apply (x : FVec Ideal S2000x128 .f32) (W : FVec Ideal S128x96 .f32) (r : Fin 2000) (q : Fin 96) :
    k0_pay1 (F := Ideal) x W (ix2 r q) = ∑ k : Fin 128, x (ix2 r k) * W (ix2 k q) := by
  unfold k0_pay1
  simp only [dot0_eq]
  simp only [matmul_plain_zero_apply, truncf_apply]

end Cert.KernelIdeal.Hand

end
-- ==== Proof.LinArray.lean ====
/-
  The first kernel's output array: the whole product `x · W`.

  The grid has 25 points; point `t` reads rows `2000 t … 2000 t + 1999` of `x` and all of `W`, and writes back rows
  `2000 t … 2000 t + 1999` of the 50000 × 96 result. What it writes is that block of ONE whole-array function — entry
  `(p, q)` is row `p` of `x` against column `q` of `W` — and the 25 blocks cover the result, so after the region the
  result array is that function, whatever the region found in it.
-/
import proofs.«165970_j84602265796646_1_alg».proof.Proof.Gen.KernelIdeal.Frame
import proofs.«165970_j84602265796646_1_alg».proof.Proof.LinBlock
import Idealize.ShloMosaic.Lib.Pipeline.Value

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The whole product: entry `(p, q)` is row `p` of `x` against column `q` of `W`. -/
def linOut (x : S50000x128.Idx → EReal) (W : S128x96.Idx → EReal) : S50000x96.Idx → EReal :=
  fun i => ∑ k : Fin 128, x (ix2 (i 0) k) * W (ix2 k (i 1))

/-- The index maps over the grid: point `t` takes block row `t` of `x` and of the result, and the one block of `W`. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The block of `x` at point `t`: rows `2000 t + r`. -/
theorem xblk0_apply (c : Dev nD) (t : Fin cfg0.N) (r : Fin 2000) (k : Fin 128) (i : S50000x128.Idx)
    (h0 : (i 0).val = t.val * 2000 + r.val) (h1 : (i 1).val = k.val) :
    iblk0 V c 0 t (ix2 r k) = V c main_arg0 i := by
  obtain ⟨e0, e1, -⟩ := idx_facts0 t
  unfold iblk0
  rw [View.read_apply]
  show V c main_arg0 (((cfg0.win 0).blk t).view.emb (ix2 r k)) = V c main_arg0 i
  refine congrArg _ (funext fun a => Fin.ext ?_)
  match a with
  | ⟨0, _⟩ => show win0_0.index t (0 : Fin 2) * 2000 + 1 * r.val = (i 0).val; rw [e0, h0]; omega
  | ⟨1, _⟩ => show win0_0.index t (1 : Fin 2) * 128 + 1 * k.val = (i 1).val; rw [e1, h1]; omega

/-- The block of `W` at any point: all of it. -/
theorem wblk0_apply (c : Dev nD) (t : Fin cfg0.N) (k : Fin 128) (q : Fin 96) (i : S128x96.Idx)
    (h0 : (i 0).val = k.val) (h1 : (i 1).val = q.val) :
    iblk0 V c 1 t (ix2 k q) = V c main_arg3 i := by
  obtain ⟨-, -, e2, e3, -⟩ := idx_facts0 t
  unfold iblk0
  rw [View.read_apply]
  show V c main_arg3 (((cfg0.win 1).blk t).view.emb (ix2 k q)) = V c main_arg3 i
  refine congrArg _ (funext fun a => Fin.ext ?_)
  match a with
  | ⟨0, _⟩ => show win0_1.index t (0 : Fin 2) * 128 + 1 * k.val = (i 0).val; rw [e2, h0]; omega
  | ⟨1, _⟩ => show win0_1.index t (1 : Fin 2) * 96 + 1 * q.val = (i 1).val; rw [e3, h1]; omega

/-- What point `t` writes back is block `t` of the whole product. -/
theorem flushed0_eq (c : Dev nD) (t : Fin cfg0.N) :
    (dat0 V c).flushed 2 t = ((cfg0.win 2).blk t).view.read (Elt Ideal) (linOut (V c main_arg0) (V c main_arg3)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x96) hz]
  obtain ⟨-, -, -, -, e4, e5⟩ := idx_facts0 t
  funext j
  show k0_pay1 (iblk0 V c 0 t) (iblk0 V c 1 t) j = linOut (V c main_arg0) (V c main_arg3) (((cfg0.win 2).blk t).view.emb j)
  refine (congrArg (k0_pay1 (F := Ideal) (iblk0 V c 0 t) (iblk0 V c 1 t)) (eq_ix2 (n0 := 2000) (n1 := 96) j)).trans ?_
  refine (lin_block_apply _ _ _ _).trans ?_
  unfold linOut
  refine Finset.sum_congr rfl fun k _ => ?_
  have hj0 : (j 0).val < 2000 := (j 0).isLt
  have hj1 : (j 1).val < 96 := (j 1).isLt
  rw [xblk0_apply V c t (j 0) k (ix2 ((((cfg0.win 2).blk t).view.emb j) 0) k)
      (by show win0_2.index t (0 : Fin 2) * 2000 + 1 * (j 0).val = t.val * 2000 + (j 0).val; rw [e4]; omega) rfl,
    wblk0_apply V c t k (j 1) (ix2 k ((((cfg0.win 2).blk t).view.emb j) 1)) rfl
      (by show win0_2.index t (1 : Fin 2) * 96 + 1 * (j 1).val = (j 1).val; rw [e5]; omega)]

/-- An index of the result is in point `t`'s block iff each coordinate is in the block's range on its axis. -/
theorem mem_blk0 (t : Fin cfg0.N) (i : S50000x96.Idx) :
    i ∈ ((cfg0.win 2).blk t).view.set ↔ ∀ a : Fin 2, win0_2.index t a * S2000x96.size a ≤ (i a).val ∧ (i a).val < win0_2.index t a * S2000x96.size a + S2000x96.size a := by
  show i ∈ ((View.whole main_v30).slice (win0_2.rect t)).set ↔ _
  rw [View.set_slice_whole, Rect.mem_set_unit]
  exact Iff.rfl

/-- Every index of the result lies in some point's block: row `p` in the block of point `p / 2000`. -/
theorem cover0 (i : S50000x96.Idx) :
    ∃ t : Fin cfg0.N, (cfg0.win 2).flush t = true ∧ i ∈ ((cfg0.win 2).blk t).view.set := by
  have hi0 : (i 0).val < 50000 := (i 0).isLt
  have hi1 : (i 1).val < 96 := (i 1).isLt
  have ht : (i 0).val / 2000 < cfg0.N := by rw [show cfg0.N = 25 from N_0]; omega
  obtain ⟨-, -, -, -, e4, e5⟩ := idx_facts0 ⟨(i 0).val / 2000, ht⟩
  refine ⟨⟨(i 0).val / 2000, ht⟩, flush0_2 _, ?_⟩
  rw [mem_blk0]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ (1 : Fin 2) * 96 ≤ (i 1).val ∧ (i 1).val < win0_2.index ⟨(i 0).val / 2000, ht⟩ (1 : Fin 2) * 96 + 96
    rw [e5]; omega

/-- After the region the result array is the whole product of the arrays the region found. -/
theorem lin_array (c : Dev nD) : (dat0 V c).arrAt 2 cfg0.N = linOut (V c main_arg0) (V c main_arg3) :=
  (dat0 V c).arrAt_eq_of_cover 2 (linOut (V c main_arg0) (V c main_arg3)) (fun t _ => flushed0_eq V c t) cover0

end Cert.KernelIdeal.Hand

end
-- ==== Proof.LibPair.lean ====
/-
  Two arrays joined, read at an index; a scalar repeated, read at an index.

  Joining two arrays along an axis gives an array whose coordinate on that axis runs first through the first piece and
  then through the second: a coordinate below the first piece's extent reads the first piece at the same index, a
  coordinate `n₁ + j` reads the second piece with `j` on that axis. Stated for two matrices side by side (columns), two
  matrices one above the other (rows), and two vectors end to end. A scalar repeated over any shape reads the scalar
  everywhere.
-/
import Idealize.ShloMosaic.Lib.Pipeline.Value
import Idealize.ShloMosaic.Lib.ValueIdx

noncomputable section

namespace Cert.Lib

open Idealize.ShloMosaic Idealize.ShloMosaic.ValueIdx

variable {α : Type}

/-- A scalar repeated over a shape reads the scalar at every index. -/
theorem splat_apply {t : Shape} (x : (⟨0, ![]⟩ : Shape).Idx → α)
    (h : (⟨0, ![]⟩ : Shape).BroadcastsInDim t (![] : Fin 0 → Fin t.rank)) (i : t.Idx) :
    broadcastInDim t ![] h x i = x ix0 :=
  broadcastInDim_apply _ h x i ix0 fun a => a.elim0

/-- Two matrices side by side: a column of the first. -/
theorem pair_cols_left {R n₁ n₂ C : ℕ} (x₁ : (⟨2, ![R, n₁]⟩ : Shape).Idx → α) (x₂ : (⟨2, ![R, n₂]⟩ : Shape).Idx → α)
    (h : Shape.Concatenates [⟨2, ![R, n₁]⟩, ⟨2, ![R, n₂]⟩] ⟨2, ![R, C]⟩ 1) (r : Fin R) (j : Fin n₁) (hj : j.val < C) :
    concatenate ⟨2, ![R, C]⟩ 1 [⟨⟨2, ![R, n₁]⟩, x₁⟩, ⟨⟨2, ![R, n₂]⟩, x₂⟩] h (ix2 r ⟨j.val, hj⟩) = x₁ (ix2 r j) :=
  concatenate_pair_apply_left 1 x₁ x₂ h _ rfl (ix2 r j) (fun b => match b with | ⟨0, _⟩ => rfl | ⟨1, _⟩ => rfl)

/-- Two matrices side by side: a column of the second. -/
theorem pair_cols_right {R n₁ n₂ C : ℕ} (x₁ : (⟨2, ![R, n₁]⟩ : Shape).Idx → α) (x₂ : (⟨2, ![R, n₂]⟩ : Shape).Idx → α)
    (h : Shape.Concatenates [⟨2, ![R, n₁]⟩, ⟨2, ![R, n₂]⟩] ⟨2, ![R, C]⟩ 1) (r : Fin R) (j : Fin n₂) (hj : n₁ + j.val < C) :
    concatenate ⟨2, ![R, C]⟩ 1 [⟨⟨2, ![R, n₁]⟩, x₁⟩, ⟨⟨2, ![R, n₂]⟩, x₂⟩] h (ix2 r ⟨n₁ + j.val, hj⟩) = x₂ (ix2 r j) :=
  concatenate_pair_apply_right 1 x₁ x₂ h _ rfl rfl (ix2 r j)
    (fun b hb => match b with | ⟨0, _⟩ => rfl | ⟨1, _⟩ => absurd rfl hb)
    (by show j.val + n₁ = n₁ + j.val; omega)

/-- Two matrices one above the other: a row of the first. -/
theorem pair_rows_top {a₁ a₂ A C : ℕ} (x₁ : (⟨2, ![a₁, C]⟩ : Shape).Idx → α) (x₂ : (⟨2, ![a₂, C]⟩ : Shape).Idx → α)
    (h : Shape.Concatenates [⟨2, ![a₁, C]⟩, ⟨2, ![a₂, C]⟩] ⟨2, ![A, C]⟩ 0) (i : Fin a₁) (c : Fin C) (hi : i.val < A) :
    concatenate ⟨2, ![A, C]⟩ 0 [⟨⟨2, ![a₁, C]⟩, x₁⟩, ⟨⟨2, ![a₂, C]⟩, x₂⟩] h (ix2 ⟨i.val, hi⟩ c) = x₁ (ix2 i c) :=
  concatenate_pair_apply_left 0 x₁ x₂ h _ rfl (ix2 i c) (fun b => match b with | ⟨0, _⟩ => rfl | ⟨1, _⟩ => rfl)

/-- Two matrices one above the other: a row of the second. -/
theorem pair_rows_bottom {a₁ a₂ A C : ℕ} (x₁ : (⟨2, ![a₁, C]⟩ : Shape).Idx → α) (x₂ : (⟨2, ![a₂, C]⟩ : Shape).Idx → α)
    (h : Shape.Concatenates [⟨2, ![a₁, C]⟩, ⟨2, ![a₂, C]⟩] ⟨2, ![A, C]⟩ 0) (i : Fin a₂) (c : Fin C) (hi : a₁ + i.val < A) :
    concatenate ⟨2, ![A, C]⟩ 0 [⟨⟨2, ![a₁, C]⟩, x₁⟩, ⟨⟨2, ![a₂, C]⟩, x₂⟩] h (ix2 ⟨a₁ + i.val, hi⟩ c) = x₂ (ix2 i c) :=
  concatenate_pair_apply_right 0 x₁ x₂ h _ rfl rfl (ix2 i c)
    (fun b hb => match b with | ⟨0, _⟩ => absurd rfl hb | ⟨1, _⟩ => rfl)
    (by show i.val + a₁ = a₁ + i.val; omega)

/-- Two vectors end to end: an entry of the first. -/
theorem pair_vec_left {n₁ n₂ N : ℕ} (x₁ : (⟨1, ![n₁]⟩ : Shape).Idx → α) (x₂ : (⟨1, ![n₂]⟩ : Shape).Idx → α)
    (h : Shape.Concatenates [⟨1, ![n₁]⟩, ⟨1, ![n₂]⟩] ⟨1, ![N]⟩ 0) (j : Fin n₁) (hj : j.val < N) :
    concatenate ⟨1, ![N]⟩ 0 [⟨⟨1, ![n₁]⟩, x₁⟩, ⟨⟨1, ![n₂]⟩, x₂⟩] h (ix1 ⟨j.val, hj⟩) = x₁ (ix1 j) :=
  concatenate_pair_apply_left 0 x₁ x₂ h _ rfl (ix1 j) (fun b => match b with | ⟨0, _⟩ => rfl)

/-- Two vectors end to end: an entry of the second. -/
theorem pair_vec_right {n₁ n₂ N : ℕ} (x₁ : (⟨1, ![n₁]⟩ : Shape).Idx → α) (x₂ : (⟨1, ![n₂]⟩ : Shape).Idx → α)
    (h : Shape.Concatenates [⟨1, ![n₁]⟩, ⟨1, ![n₂]⟩] ⟨1, ![N]⟩ 0) (j : Fin n₂) (hj : n₁ + j.val < N) :
    concatenate ⟨1, ![N]⟩ 0 [⟨⟨1, ![n₁]⟩, x₁⟩, ⟨⟨1, ![n₂]⟩, x₂⟩] h (ix1 ⟨n₁ + j.val, hj⟩) = x₂ (ix1 j) :=
  concatenate_pair_apply_right 0 x₁ x₂ h _ rfl rfl (ix1 j)
    (fun b hb => match b with | ⟨0, _⟩ => absurd rfl hb)
    (by show j.val + n₁ = n₁ + j.val; omega)

end Cert.Lib

end
-- ==== Proof.LibJoinCols.lean ====
/-
  Two matrices side by side, read at any column.

  Joining `[R, n₁]` and `[R, n₂]` along the column axis gives `[R, C]` with `C = n₁ + n₂`: a column `l < n₁` reads the
  first matrix at column `l`, a column `l ≥ n₁` reads the second at column `l - n₁`. As a row: row `r` of the join is the
  row of the first followed by the row of the second (`Cert.Lib.rowJoin`).
-/
import proofs.«165970_j84602265796646_1_alg».proof.Proof.LibPair

noncomputable section

namespace Cert.Lib

open Idealize.ShloMosaic Idealize.ShloMosaic.ValueIdx

variable {α : Type}

/-- A row of `n₁` entries followed by a row of `n₂` entries, as one row of `C = n₁ + n₂` entries. -/
def rowJoin (n₁ : ℕ) {n₂ C : ℕ} (hC : C = n₁ + n₂) (u : Fin n₁ → α) (v : Fin n₂ → α) : Fin C → α :=
  fun l => if h : l.val < n₁ then u ⟨l.val, h⟩ else v ⟨l.val - n₁, by have := l.isLt; omega⟩

/-- Row `r` of two matrices joined side by side is the join of their rows `r`. -/
theorem pair_cols_apply {R n₁ n₂ C : ℕ} (hC : C = n₁ + n₂) (x₁ : (⟨2, ![R, n₁]⟩ : Shape).Idx → α)
    (x₂ : (⟨2, ![R, n₂]⟩ : Shape).Idx → α)
    (h : Shape.Concatenates [⟨2, ![R, n₁]⟩, ⟨2, ![R, n₂]⟩] ⟨2, ![R, C]⟩ 1) (r : Fin R) (l : Fin C) :
    concatenate ⟨2, ![R, C]⟩ 1 [⟨⟨2, ![R, n₁]⟩, x₁⟩, ⟨⟨2, ![R, n₂]⟩, x₂⟩] h (ix2 r l)
      = rowJoin n₁ hC (fun k => x₁ (ix2 r k)) (fun k => x₂ (ix2 r k)) l := by
  unfold rowJoin
  by_cases hl : l.val < n₁
  · rw [dif_pos hl]
    exact pair_cols_left x₁ x₂ h r ⟨l.val, hl⟩ l.isLt
  · rw [dif_neg hl]
    have hlt : l.val - n₁ < n₂ := by have := l.isLt; omega
    have e : l = ⟨n₁ + (l.val - n₁), by have := l.isLt; omega⟩ := Fin.ext (by show l.val = n₁ + (l.val - n₁); omega)
    have hr := pair_cols_right x₁ x₂ h r ⟨l.val - n₁, hlt⟩ (by show n₁ + (l.val - n₁) < C; have := l.isLt; omega)
    exact (congrArg (fun z => concatenate ⟨2, ![R, C]⟩ 1 [⟨⟨2, ![R, n₁]⟩, x₁⟩, ⟨⟨2, ![R, n₂]⟩, x₂⟩] h (ix2 r z)) e).trans hr

end Cert.Lib

end
-- ==== Proof.RowNet.lean ====
/-
  The two dense layers after the graph convolution, one node (one row) at a time.

  For one node the network's last stage takes the node's aggregated features `g` (96 numbers), its temporal features
  (10 numbers) and its input features (128 numbers), and computes

      h₀ = max (g + b) 0                       (96 numbers)
      h₁ = max ([h₀ , temporal] · W₁ + b₁) 0   (96 numbers; the row [h₀ , temporal] has 106 entries)
      y  = max ([h₁ , x] · W₂ + b₂) 0          (one number; the row [h₁ , x] has 224 entries)

  on the extended reals, `[u , v]` a row followed by a row and `·` a row against the columns of a matrix. The `0` is the
  word of `+0.0` read on the extended reals, kept as that word. Both programs compute exactly this for every node: the
  kernel a block of 1000 nodes at a time, the reference all 50000 at once.
-/
import Idealize.ShloMosaic.PureOps.Ideal
import proofs.«165970_j84602265796646_1_alg».proof.Proof.LibJoinCols

noncomputable section

namespace Cert.Spec

open Idealize.ShloMosaic Cert.Lib
open scoped BigOperators

/-- The word of `+0.0` on the extended reals. -/
def zero : EReal := Ideal.ofBits .f32 0x00000000#32

/-- Bias, then the positive part: `max (g + b) 0`, entry by entry. -/
def hidden0 (g b : Fin 96 → EReal) : Fin 96 → EReal := fun k => max (g k + b k) zero

/-- One dense layer on a row: `max (row · W + bias) 0`, entry by entry. -/
def dense {K N : ℕ} (row : Fin K → EReal) (W : Fin K → Fin N → EReal) (bias : Fin N → EReal) : Fin N → EReal :=
  fun n => max ((∑ l : Fin K, row l * W l n) + bias n) zero

/-- The last stage's output for one node. -/
def nodeOut (g : Fin 96 → EReal) (tmp : Fin 10 → EReal) (x : Fin 128 → EReal) (b : Fin 96 → EReal)
    (W1 : Fin 106 → Fin 96 → EReal) (b1 : Fin 96 → EReal) (W2 : Fin 224 → Fin 1 → EReal) (b2 : Fin 1 → EReal) :
    Fin 1 → EReal :=
  dense (rowJoin 96 (show 224 = 96 + 128 from rfl) (dense (rowJoin 96 (show 106 = 96 + 10 from rfl) (hidden0 g b) tmp) W1 b1) x) W2 b2

/-- Equal rows, weights and biases give equal outputs. -/
theorem nodeOut_congr {g g' : Fin 96 → EReal} {tmp tmp' : Fin 10 → EReal} {x x' : Fin 128 → EReal} {b b' : Fin 96 → EReal}
    {W1 W1' : Fin 106 → Fin 96 → EReal} {b1 b1' : Fin 96 → EReal} {W2 W2' : Fin 224 → Fin 1 → EReal} {b2 b2' : Fin 1 → EReal}
    {u u' : Fin 1} (hg : g = g') (ht : tmp = tmp') (hx : x = x') (hb : b = b') (hW1 : W1 = W1') (hb1 : b1 = b1')
    (hW2 : W2 = W2') (hb2 : b2 = b2') (hu : u = u') :
    nodeOut g tmp x b W1 b1 W2 b2 u = nodeOut g' tmp' x' b' W1' b1' W2' b2' u' := by
  subst hg ht hx hb hW1 hb1 hW2 hb2 hu; rfl

end Cert.Spec

end
-- ==== Proof.FcBlock.lean ====
/-
  What the second kernel's body stores, read at one entry.

  The body works on a block of 1000 nodes: the aggregated features `g` (1000 × 96), the bias row, the temporal features
  (1000 × 10), the input features (1000 × 128), and the two layers' weights and bias rows. Entry `(r, u)` of the stored
  1000 × 1 block is the node-wise network of Proof/RowNet.lean applied to row `r` of each block: the roundings to bf16 are
  the identity on the extended reals, a matrix product into the zero accumulator is the row-by-column sum, a bias row
  broadcast down the block reads the row's entry, and two blocks joined side by side read as the two rows joined.
-/
import proofs.«165970_j84602265796646_1_alg».proof.Proof.Gen.KernelIdeal.Skeleton
import proofs.«165970_j84602265796646_1_alg».proof.Proof.RowNet
import proofs.«165970_j84602265796646_1_alg».proof.Proof.LibMatDot
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx Cert.Lib Cert.Spec
open scoped BigOperators

/-- The first layer's product is rows against columns. -/
theorem dot1_eq : dot_S1000x106_S106x96_S1000x96_1_0_0_1_n_n = matDot dot_S1000x106_S106x96_S1000x96_1_0_0_1_n_n_wf := rfl
/-- The second layer's product is rows against columns. -/
theorem dot2_eq : dot_S1000x224_S224x1_S1000x1_1_0_0_1_n_n = matDot dot_S1000x224_S224x1_S1000x1_1_0_0_1_n_n_wf := rfl

/-- Entry `(r, u)` of the block the body stores is the node-wise network on row `r` of the loaded blocks. -/
theorem fc_block_apply (g : FVec Ideal S1000x96 .f32) (b : FVec Ideal S1x96 .f32) (tmp : FVec Ideal S1000x10 .f32)
    (W1 : FVec Ideal S106x96 .f32) (b1 : FVec Ideal S1x96 .f32) (x : FVec Ideal S1000x128 .f32)
    (W2 : FVec Ideal S224x1 .f32) (b2 : FVec Ideal S1x1 .f32) (r : Fin 1000) (u : Fin 1) :
    k1_pay1 (F := Ideal) g b tmp W1 b1 x W2 b2 (ix2 r u)
      = nodeOut (fun k => g (ix2 r k)) (fun k => tmp (ix2 r k)) (fun k => x (ix2 r k)) (fun k => b (ix2 (0 : Fin 1) k))
          (fun l k => W1 (ix2 l k)) (fun k => b1 (ix2 (0 : Fin 1) k)) (fun l v => W2 (ix2 l v)) (fun v => b2 (ix2 (0 : Fin 1) v)) u := by
  unfold k1_pay1
  simp only [dot1_eq, dot2_eq]
  simp only [maximumf_apply, addf_apply, broadcast_apply, truncf_apply, matmul_plain_zero_apply,
    pair_cols_apply (show 224 = 96 + 128 from rfl), pair_cols_apply (show 106 = 96 + 10 from rfl),
    shapeCast_self, broadcastTo_1b_ab_apply]
  rfl

end Cert.KernelIdeal.Hand

end
-- ==== Proof.FcArray.lean ====
/-
  The second kernel's output array: the two dense layers, node by node.

  The grid has 50 points; point `t` reads rows `1000 t … 1000 t + 999` of the aggregated features, of the temporal
  features and of the input features, all of the two weight matrices and of the three bias rows, and writes back rows
  `1000 t … 1000 t + 999` of the 50000 × 1 result. What it writes is that block of ONE whole-array function — entry
  `(p, u)` is the node-wise network of Proof/RowNet.lean on row `p` of the three feature arrays — and the 50 blocks cover
  the result, so after the region the result array is that function of the arrays the region found.
-/
import proofs.«165970_j84602265796646_1_alg».proof.Proof.Gen.KernelIdeal.Frame
import proofs.«165970_j84602265796646_1_alg».proof.Proof.FcBlock
import Idealize.ShloMosaic.Lib.Pipeline.Value

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)
open Cert.Spec
open scoped BigOperators

variable (V : (c : Dev nD) → (b : Ref sig .tc) → Buf (Elt Ideal) ((c : Thread nD τ).loc b))

theorem hz1 : (![0, 0] : Fin 2 → Nat) = fun _ => 0 := funext fun a => by fin_cases a <;> rfl

/-- The dense layers on every node: entry `(p, u)` is the node-wise network on row `p` of the aggregated features `G`, of
    the temporal features `T` and of the input features `X`, with the bias rows `B`, `B1`, `B2` and the weights `W1`, `W2`. -/
def fcOut (G : S50000x96.Idx → EReal) (B : S1x96.Idx → EReal) (T : S50000x10.Idx → EReal) (X : S50000x128.Idx → EReal)
    (W1 : S106x96.Idx → EReal) (B1 : S1x96.Idx → EReal) (W2 : S224x1.Idx → EReal) (B2 : S1x1.Idx → EReal) :
    S50000x1.Idx → EReal :=
  fun i => nodeOut (fun k => G (ix2 (i 0) k)) (fun k => T (ix2 (i 0) k)) (fun k => X (ix2 (i 0) k)) (fun k => B (ix2 (0 : Fin 1) k))
    (fun l k => W1 (ix2 l k)) (fun k => B1 (ix2 (0 : Fin 1) k)) (fun l v => W2 (ix2 l v)) (fun v => B2 (ix2 (0 : Fin 1) v)) (i 1)

/-! ## The index maps over the grid: a row-block window takes block row `t`, a whole-array window its one block -/

theorem idx_w1_0 : ∀ t : Fin cfg1.N, win1_0.index t (0 : Fin 2) = t.val ∧ win1_0.index t (1 : Fin 2) = 0 :=
  (by decide +kernel : ∀ t : Fin grid1.N, _)
theorem idx_w1_1 : ∀ t : Fin cfg1.N, win1_1.index t (0 : Fin 2) = 0 ∧ win1_1.index t (1 : Fin 2) = 0 :=
  (by decide +kernel : ∀ t : Fin grid1.N, _)
theorem idx_w1_2 : ∀ t : Fin cfg1.N, win1_2.index t (0 : Fin 2) = t.val ∧ win1_2.index t (1 : Fin 2) = 0 :=
  (by decide +kernel : ∀ t : Fin grid1.N, _)
theorem idx_w1_3 : ∀ t : Fin cfg1.N, win1_3.index t (0 : Fin 2) = t.val ∧ win1_3.index t (1 : Fin 2) = 0 :=
  (by decide +kernel : ∀ t : Fin grid1.N, _)
theorem idx_w1_4 : ∀ t : Fin cfg1.N, win1_4.index t (0 : Fin 2) = 0 ∧ win1_4.index t (1 : Fin 2) = 0 :=
  (by decide +kernel : ∀ t : Fin grid1.N, _)
theorem idx_w1_5 : ∀ t : Fin cfg1.N, win1_5.index t (0 : Fin 2) = 0 ∧ win1_5.index t (1 : Fin 2) = 0 :=
  (by decide +kernel : ∀ t : Fin grid1.N, _)
theorem idx_w1_6 : ∀ t : Fin cfg1.N, win1_6.index t (0 : Fin 2) = 0 ∧ win1_6.index t (1 : Fin 2) = 0 :=
  (by decide +kernel : ∀ t : Fin grid1.N, _)
theorem idx_w1_7 : ∀ t : Fin cfg1.N, win1_7.index t (0 : Fin 2) = 0 ∧ win1_7.index t (1 : Fin 2) = 0 :=
  (by decide +kernel : ∀ t : Fin grid1.N, _)
theorem idx_w1_8 : ∀ t : Fin cfg1.N, win1_8.index t (0 : Fin 2) = t.val ∧ win1_8.index t (1 : Fin 2) = 0 :=
  (by decide +kernel : ∀ t : Fin grid1.N, _)

/-! ## The input blocks at point `t` -/

/-- The block of aggregated features at point `t`: rows `1000 t + r`. -/
theorem gblk1_apply (c : Dev nD) (t : Fin cfg1.N) (r : Fin 1000) (k : Fin 96) (i : S50000x96.Idx)
    (h0 : (i 0).val = t.val * 1000 + r.val) (h1 : (i 1).val = k.val) :
    iblk1 V c 0 t (ix2 r k) = V c main_v43 i := by
  obtain ⟨e0, e1⟩ := idx_w1_0 t
  unfold iblk1
  rw [View.read_apply]
  show V c main_v43 (((cfg1.win 0).blk t).view.emb (ix2 r k)) = V c main_v43 i
  refine congrArg _ (funext fun a => Fin.ext ?_)
  match a with
  | ⟨0, _⟩ => show win1_0.index t (0 : Fin 2) * 1000 + 1 * r.val = (i 0).val; rw [e0, h0]; omega
  | ⟨1, _⟩ => show win1_0.index t (1 : Fin 2) * 96 + 1 * k.val = (i 1).val; rw [e1, h1]; omega

/-- The first bias row, whole at every point. -/
theorem bblk1_apply (c : Dev nD) (t : Fin cfg1.N) (r : Fin 1) (k : Fin 96) :
    iblk1 V c 1 t (ix2 r k) = V c main_v44 (ix2 r k) := by
  obtain ⟨e0, e1⟩ := idx_w1_1 t
  unfold iblk1
  rw [View.read_apply]
  show V c main_v44 (((cfg1.win 1).blk t).view.emb (ix2 r k)) = V c main_v44 (ix2 r k)
  refine congrArg _ (funext fun a => Fin.ext ?_)
  match a with
  | ⟨0, _⟩ => show win1_1.index t (0 : Fin 2) * 1 + 1 * r.val = r.val; rw [e0]; omega
  | ⟨1, _⟩ => show win1_1.index t (1 : Fin 2) * 96 + 1 * k.val = k.val; rw [e1]; omega

/-- The block of temporal features at point `t`: rows `1000 t + r`. -/
theorem tblk1_apply (c : Dev nD) (t : Fin cfg1.N) (r : Fin 1000) (k : Fin 10) (i : S50000x10.Idx)
    (h0 : (i 0).val = t.val * 1000 + r.val) (h1 : (i 1).val = k.val) :
    iblk1 V c 2 t (ix2 r k) = V c main_arg2 i := by
  obtain ⟨e0, e1⟩ := idx_w1_2 t
  unfold iblk1
  rw [View.read_apply]
  show V c main_arg2 (((cfg1.win 2).blk t).view.emb (ix2 r k)) = V c main_arg2 i
  refine congrArg _ (funext fun a => Fin.ext ?_)
  match a with
  | ⟨0, _⟩ => show win1_2.index t (0 : Fin 2) * 1000 + 1 * r.val = (i 0).val; rw [e0, h0]; omega
  | ⟨1, _⟩ => show win1_2.index t (1 : Fin 2) * 10 + 1 * k.val = (i 1).val; rw [e1, h1]; omega

/-- The block of input features at point `t`: rows `1000 t + r`. -/
theorem xblk1_apply (c : Dev nD) (t : Fin cfg1.N) (r : Fin 1000) (k : Fin 128) (i : S50000x128.Idx)
    (h0 : (i 0).val = t.val * 1000 + r.val) (h1 : (i 1).val = k.val) :
    iblk1 V c 3 t (ix2 r k) = V c main_arg0 i := by
  obtain ⟨e0, e1⟩ := idx_w1_3 t
  unfold iblk1
  rw [View.read_apply]
  show V c main_arg0 (((cfg1.win 3).blk t).view.emb (ix2 r k)) = V c main_arg0 i
  refine congrArg _ (funext fun a => Fin.ext ?_)
  match a with
  | ⟨0, _⟩ => show win1_3.index t (0 : Fin 2) * 1000 + 1 * r.val = (i 0).val; rw [e0, h0]; omega
  | ⟨1, _⟩ => show win1_3.index t (1 : Fin 2) * 128 + 1 * k.val = (i 1).val; rw [e1, h1]; omega

/-- The first layer's weights, whole at every point. -/
theorem w1blk1_apply (c : Dev nD) (t : Fin cfg1.N) (r : Fin 106) (k : Fin 96) :
    iblk1 V c 4 t (ix2 r k) = V c main_arg5 (ix2 r k) := by
  obtain ⟨e0, e1⟩ := idx_w1_4 t
  unfold iblk1
  rw [View.read_apply]
  show V c main_arg5 (((cfg1.win 4).blk t).view.emb (ix2 r k)) = V c main_arg5 (ix2 r k)
  refine congrArg _ (funext fun a => Fin.ext ?_)
  match a with
  | ⟨0, _⟩ => show win1_4.index t (0 : Fin 2) * 106 + 1 * r.val = r.val; rw [e0]; omega
  | ⟨1, _⟩ => show win1_4.index t (1 : Fin 2) * 96 + 1 * k.val = k.val; rw [e1]; omega

/-- The first layer's bias row, whole at every point. -/
theorem b1blk1_apply (c : Dev nD) (t : Fin cfg1.N) (r : Fin 1) (k : Fin 96) :
    iblk1 V c 5 t (ix2 r k) = V c main_v45 (ix2 r k) := by
  obtain ⟨e0, e1⟩ := idx_w1_5 t
  unfold iblk1
  rw [View.read_apply]
  show V c main_v45 (((cfg1.win 5).blk t).view.emb (ix2 r k)) = V c main_v45 (ix2 r k)
  refine congrArg _ (funext fun a => Fin.ext ?_)
  match a with
  | ⟨0, _⟩ => show win1_5.index t (0 : Fin 2) * 1 + 1 * r.val = r.val; rw [e0]; omega
  | ⟨1, _⟩ => show win1_5.index t (1 : Fin 2) * 96 + 1 * k.val = k.val; rw [e1]; omega

/-- The second layer's weights, whole at every point. -/
theorem w2blk1_apply (c : Dev nD) (t : Fin cfg1.N) (r : Fin 224) (k : Fin 1) :
    iblk1 V c 6 t (ix2 r k) = V c main_arg7 (ix2 r k) := by
  obtain ⟨e0, e1⟩ := idx_w1_6 t
  unfold iblk1
  rw [View.read_apply]
  show V c main_arg7 (((cfg1.win 6).blk t).view.emb (ix2 r k)) = V c main_arg7 (ix2 r k)
  refine congrArg _ (funext fun a => Fin.ext ?_)
  match a with
  | ⟨0, _⟩ => show win1_6.index t (0 : Fin 2) * 224 + 1 * r.val = r.val; rw [e0]; omega
  | ⟨1, _⟩ => show win1_6.index t (1 : Fin 2) * 1 + 1 * k.val = k.val; rw [e1]; omega

/-- The second layer's bias, whole at every point. -/
theorem b2blk1_apply (c : Dev nD) (t : Fin cfg1.N) (r : Fin 1) (k : Fin 1) :
    iblk1 V c 7 t (ix2 r k) = V c main_v46 (ix2 r k) := by
  obtain ⟨e0, e1⟩ := idx_w1_7 t
  unfold iblk1
  rw [View.read_apply]
  show V c main_v46 (((cfg1.win 7).blk t).view.emb (ix2 r k)) = V c main_v46 (ix2 r k)
  refine congrArg _ (funext fun a => Fin.ext ?_)
  match a with
  | ⟨0, _⟩ => show win1_7.index t (0 : Fin 2) * 1 + 1 * r.val = r.val; rw [e0]; omega
  | ⟨1, _⟩ => show win1_7.index t (1 : Fin 2) * 1 + 1 * k.val = k.val; rw [e1]; omega

/-! ## From the blocks to the array -/

/-- What point `t` writes back is block `t` of the dense layers on every node. -/
theorem flushed1_eq (c : Dev nD) (t : Fin cfg1.N) :
    (dat1 V c).flushed 8 t = ((cfg1.win 8).blk t).view.read (Elt Ideal)
      (fcOut (V c main_v43) (V c main_v44) (V c main_arg2) (V c main_arg0) (V c main_arg5) (V c main_v45) (V c main_arg7) (V c main_v46)) := by
  show (cfg1.win 8).cut (grid1.coords t) ((dat1 V c).after 8 t) = _
  rw [after1_8]
  unfold out1_8
  rw [View.canon_unit_zero hz1]
  simp only [View.ld_unit_zero (S := S1000x96) hz1, View.ld_unit_zero (S := S1x96) hz1, View.ld_unit_zero (S := S1000x10) hz1,
    View.ld_unit_zero (S := S1000x128) hz1, View.ld_unit_zero (S := S106x96) hz1, View.ld_unit_zero (S := S224x1) hz1,
    View.ld_unit_zero (S := S1x1) hz1]
  obtain ⟨e8, e8'⟩ := idx_w1_8 t
  funext j
  show k1_pay1 (iblk1 V c 0 t) (iblk1 V c 1 t) (iblk1 V c 2 t) (iblk1 V c 4 t) (iblk1 V c 5 t) (iblk1 V c 3 t) (iblk1 V c 6 t) (iblk1 V c 7 t) j
    = fcOut (V c main_v43) (V c main_v44) (V c main_arg2) (V c main_arg0) (V c main_arg5) (V c main_v45) (V c main_arg7) (V c main_v46)
        (((cfg1.win 8).blk t).view.emb j)
  refine (congrArg (k1_pay1 (F := Ideal) (iblk1 V c 0 t) (iblk1 V c 1 t) (iblk1 V c 2 t) (iblk1 V c 4 t) (iblk1 V c 5 t) (iblk1 V c 3 t) (iblk1 V c 6 t) (iblk1 V c 7 t))
    (eq_ix2 (n0 := 1000) (n1 := 1) j)).trans ?_
  refine (fc_block_apply _ _ _ _ _ _ _ _ _ _).trans ?_
  unfold fcOut
  have hj0 : (j 0).val < 1000 := (j 0).isLt
  have hrow : ((((cfg1.win 8).blk t).view.emb j) 0).val = t.val * 1000 + (j 0).val := by
    show win1_8.index t (0 : Fin 2) * 1000 + 1 * (j 0).val = t.val * 1000 + (j 0).val; rw [e8]; omega
  refine nodeOut_congr
    (funext fun k => gblk1_apply V c t (j 0) k _ hrow rfl)
    (funext fun k => tblk1_apply V c t (j 0) k _ hrow rfl)
    (funext fun k => xblk1_apply V c t (j 0) k _ hrow rfl)
    (funext fun k => bblk1_apply V c t 0 k)
    (funext fun l => funext fun k => w1blk1_apply V c t l k)
    (funext fun k => b1blk1_apply V c t 0 k)
    (funext fun l => funext fun v => w2blk1_apply V c t l v)
    (funext fun v => b2blk1_apply V c t 0 v)
    (Subsingleton.elim _ _)

/-- An index of the result is in point `t`'s block iff each coordinate is in the block's range on its axis. -/
theorem mem_blk1 (t : Fin cfg1.N) (i : S50000x1.Idx) :
    i ∈ ((cfg1.win 8).blk t).view.set ↔ ∀ a : Fin 2, win1_8.index t a * S1000x1.size a ≤ (i a).val ∧ (i a).val < win1_8.index t a * S1000x1.size a + S1000x1.size a := by
  show i ∈ ((View.whole main_v47).slice (win1_8.rect t)).set ↔ _
  rw [View.set_slice_whole, Rect.mem_set_unit]
  exact Iff.rfl

/-- Every index of the result lies in some point's block: node `p` in the block of point `p / 1000`. -/
theorem cover1 (i : S50000x1.Idx) :
    ∃ t : Fin cfg1.N, (cfg1.win 8).flush t = true ∧ i ∈ ((cfg1.win 8).blk t).view.set := by
  have hi0 : (i 0).val < 50000 := (i 0).isLt
  have hi1 : (i 1).val < 1 := (i 1).isLt
  have ht : (i 0).val / 1000 < cfg1.N := by rw [show cfg1.N = 50 from N_1]; omega
  obtain ⟨e8, e8'⟩ := idx_w1_8 ⟨(i 0).val / 1000, ht⟩
  refine ⟨⟨(i 0).val / 1000, ht⟩, flush1_8 _, ?_⟩
  rw [mem_blk1]
  intro a
  match a with
  | ⟨0, _⟩ =>
    show win1_8.index ⟨(i 0).val / 1000, ht⟩ (0 : Fin 2) * 1000 ≤ (i 0).val ∧ (i 0).val < win1_8.index ⟨(i 0).val / 1000, ht⟩ (0 : Fin 2) * 1000 + 1000
    rw [e8]; show (i 0).val / 1000 * 1000 ≤ (i 0).val ∧ (i 0).val < (i 0).val / 1000 * 1000 + 1000; omega
  | ⟨1, _⟩ =>
    show win1_8.index ⟨(i 0).val / 1000, ht⟩ (1 : Fin 2) * 1 ≤ (i 1).val ∧ (i 1).val < win1_8.index ⟨(i 0).val / 1000, ht⟩ (1 : Fin 2) * 1 + 1
    rw [e8']; omega

/-- After the region the result array is the dense layers on every node, of the arrays the region found. -/
theorem fc_array (c : Dev nD) : (dat1 V c).arrAt 8 cfg1.N
    = fcOut (V c main_v43) (V c main_v44) (V c main_arg2) (V c main_arg0) (V c main_arg5) (V c main_v45) (V c main_arg7) (V c main_v46) :=
  (dat1 V c).arrAt_eq_of_cover 8 _ (fun t _ => flushed1_eq V c t) cover1

end Cert.KernelIdeal.Hand

end
-- ==== Proof.RunValue.lean ====
/-
  The kernel program's run, with its result named.

  @main is six segments: three stretches of host operations (the degrees, their inverse square roots, the edge
  weights), the first kernel's region (the projection `x · W`), a stretch of host operations (gather along the edges,
  scale, scatter-add onto the nodes; the bias rows), and the second kernel's region (the two dense layers). Every weakly
  fair execution terminates, nothing faulting, and the final memory holds, at every buffer that outlives a region, the
  contents the segments' fold leaves there: in particular the result buffer holds what the second region's write-backs
  leave in it, and the arguments are as launched.
-/
import proofs.«165970_j84602265796646_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main: the result buffer ends at the last boundary's contents of it, the arguments as launched. -/
theorem run_value : θ_run defs (onTc (τ := τ) (main (F := F))) ⟨m, fun _ => 0, ρ⟩ (fun r => ∀ c : Dev nD,
      r.2.mem ((c.tc : Thread nD τ).loc main_v47) = W6 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v47 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.Hand

end
-- ==== Proof.LibAsRow.lean ====
/-
  A vector as one row.

  A vector of `n` entries laid out as a `[1, n]` array reads, at `(u, k)`, the vector's entry `k`. Two layout operations
  produce that array: a reshape `[n] → [1, n]`, and a broadcast of `[n]` into `[1, n]` that sends the vector's axis to
  the array's second axis. Both are the same function of the vector.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type} {n : ℕ}

/-- The `[1, n]` array whose one row is the vector `v`. -/
def asRow (v : (⟨1, ![n]⟩ : Shape).Idx → α) : (⟨2, ![1, n]⟩ : Shape).Idx → α := fun i => v (ix1 (i 1))

theorem asRow_apply (v : (⟨1, ![n]⟩ : Shape).Idx → α) (u : Fin 1) (k : Fin n) : asRow v (ix2 u k) = v (ix1 k) := rfl

/-- A vector reshaped to `[1, n]` is the vector as one row. -/
theorem shapeCast_eq_asRow (v : (⟨1, ![n]⟩ : Shape).Idx → α) (h : (⟨1, ![n]⟩ : Shape).ShapeCasts ⟨2, ![1, n]⟩) :
    shapeCast ⟨2, ![1, n]⟩ v h = asRow v :=
  funext fun i => (congrArg (shapeCast ⟨2, ![1, n]⟩ v h) (eq_ix2 i)).trans (shapeCast_a_1a_apply v h (i 0) (i 1))

/-- A vector broadcast into `[1, n]` along the second axis is the vector as one row. -/
theorem broadcastInDim_eq_asRow (v : (⟨1, ![n]⟩ : Shape).Idx → α)
    (h : (⟨1, ![n]⟩ : Shape).BroadcastsInDim ⟨2, ![1, n]⟩ (![1] : Fin 1 → Fin 2)) :
    broadcastInDim ⟨2, ![1, n]⟩ ![1] h v = asRow v :=
  funext fun i => broadcastInDim_apply _ h v i (ix1 (i 1)) (fun a => match a with
    | ⟨0, _⟩ => by
      show (i 1).val = if n = 1 then 0 else (i 1).val
      have h1 : (i 1).val < n := (i 1).isLt
      split
      · omega
      · rfl)

end Cert.Lib

end
-- ==== Proof.KernelValue.lean ====
/-
  The kernel program's result as one function of its arguments.

  Through the segments of @main: the first region leaves the product `x · W` in its output array (Proof/LinArray.lean) and
  every other buffer as it found it; the host operations between the regions leave the aggregation of that product
  along the edges and the three bias vectors as rows (Proof/HostMid.lean); the second region leaves the dense layers on
  every node in the result array (Proof/FcArray.lean). Composed: the result is `netOut` of the nine arguments.
-/
import proofs.«165970_j84602265796646_1_alg».proof.Proof.HostMid
import proofs.«165970_j84602265796646_1_alg».proof.Proof.LinArray
import proofs.«165970_j84602265796646_1_alg».proof.Proof.FcArray
import proofs.«165970_j84602265796646_1_alg».proof.Proof.RunValue
import proofs.«165970_j84602265796646_1_alg».proof.Proof.LibAsRow

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.ReferenceIdeal.ReadP Cert.Lib

/-- Gather `h` along the edges' sources, scale every gathered row by its edge's weight, add the rows up at the edges'
    destinations: the graph convolution's aggregation, as a function of the projected features `h` and the edge list (the
    sources, destinations and weights being the reference's stages of the edge list). -/
def aggOf {F : FTy → Type} [FloatOps F] (h : (⟨Cert.ReferenceIdeal.S50000x96, .f32⟩ : BufTy).Contents (Elt F))
    (e : (⟨Cert.ReferenceIdeal.S2x800000, .i32⟩ : BufTy).Contents (Elt F)) :
    (⟨Cert.ReferenceIdeal.S50000x96, .f32⟩ : BufTy).Contents (Elt F) :=
  Host.scatterAdd Cert.ReferenceIdeal.scatter_S50000x96_S850000x1_S850000x96_1_0_0_1 (val_main_v41 (F := F)) (val_main_v42 (F := F) e)
    (mulf (Host.gather Cert.ReferenceIdeal.gather_S50000x96_S850000x1_S850000x96_1_0_n_n_0_1_196 h (val_main_v36 (F := F) e)) (val_main_v39 (F := F) e))

/-- The reference's aggregation stage is `aggOf` of its own product. -/
theorem ref_agg {F : FTy → Type} [FloatOps F] (x0 : (⟨Cert.ReferenceIdeal.S50000x128, .f32⟩ : BufTy).Contents (Elt F))
    (x1 : (⟨Cert.ReferenceIdeal.S2x800000, .i32⟩ : BufTy).Contents (Elt F))
    (x3 : (⟨Cert.ReferenceIdeal.S128x96, .f32⟩ : BufTy).Contents (Elt F)) :
    val_main_v43 (F := F) x0 x1 x3 = aggOf (val_main_v30 (F := F) x0 x3) x1 := rfl

/-- The whole network: project the input features, aggregate along the edges, then the two dense layers on every node
    (the three bias vectors as one-row matrices). -/
def netOut (x0 : S50000x128.Idx → EReal) (x1 : (⟨S2x800000, .i32⟩ : BufTy).Contents (Elt Ideal)) (x2 : S50000x10.Idx → EReal)
    (x3 : S128x96.Idx → EReal) (x4 : S96.Idx → EReal) (x5 : S106x96.Idx → EReal) (x6 : S96.Idx → EReal)
    (x7 : S224x1.Idx → EReal) (x8 : S1.Idx → EReal) : S50000x1.Idx → EReal :=
  fcOut (aggOf (F := Ideal) (linOut x0 x3) x1) (asRow x4) x2 x0 x5 (asRow x6) x7 (asRow x8)

variable (m : (ℓ : Loc nD τ sig) → Buf (Elt Ideal) ℓ) (ρ : Dev nD → PrngReg) (c : Dev nD)

/-! ## After the first region -/

theorem W4_src : W4 m ρ c (Proc.devRef .tc main_v3) = val_main_v3 (F := Ideal) (m ((c : Thread nD τ).loc main_arg1)) :=
  (W4_of_ne m ρ c main_v3 (by decide)).trans (W3_edges m ρ c).1
theorem W4_dst : W4 m ρ c (Proc.devRef .tc main_v6) = val_main_v6 (F := Ideal) (m ((c : Thread nD τ).loc main_arg1)) :=
  (W4_of_ne m ρ c main_v6 (by decide)).trans (W3_edges m ρ c).2.1
theorem W4_weight : W4 m ρ c (Proc.devRef .tc main_v29) = val_main_v29 (F := Ideal) (m ((c : Thread nD τ).loc main_arg1)) :=
  (W4_of_ne m ρ c main_v29 (by decide)).trans (W3_edges m ρ c).2.2

/-- An argument the first region does not stage is as launched after it. -/
theorem W4_arg (b : Ref sig .tc) (hb : b = main_arg2 ∨ b = main_arg4 ∨ b = main_arg5 ∨ b = main_arg6 ∨ b = main_arg7 ∨ b = main_arg8) :
    W4 m ρ c (Proc.devRef .tc b) = m ((c : Thread nD τ).loc b) := by
  rcases hb with rfl | rfl | rfl | rfl | rfl | rfl <;>
    exact (W4_of_ne m ρ c _ (by decide)).trans (W3_arg m ρ c _ (by simp))

/-- The input features, which the first region stages, are as launched after it. -/
theorem W4_x : W4 m ρ c (Proc.devRef .tc main_arg0) = m ((c : Thread nD τ).loc main_arg0) :=
  (W4_arr m ρ c 0).trans ((((dat0 (V3 m ρ) c).arrAt_in 0 rfl _).trans (A_eq0 (V3 m ρ) c 0)).trans (W3_arg m ρ c main_arg0 (by simp)))

/-- The first region's output: the product of the input features with the projection's weights. -/
theorem W4_h : W4 m ρ c (Proc.devRef .tc main_v30)
    = linOut (m ((c : Thread nD τ).loc main_arg0)) (m ((c : Thread nD τ).loc main_arg3)) := by
  refine (W4_arr m ρ c 2).trans ((lin_array (V3 m ρ) c).trans ?_)
  show linOut (W3 m ρ c (Proc.devRef .tc main_arg0)) (W3 m ρ c (Proc.devRef .tc main_arg3)) = _
  rw [W3_arg m ρ c main_arg0 (by simp), W3_arg m ρ c main_arg3 (by simp)]

/-! ## Before the second region -/

/-- The aggregated features. -/
theorem W5_agg : W5 m ρ c (Proc.devRef .tc main_v43)
    = aggOf (F := Ideal) (linOut (m ((c : Thread nD τ).loc main_arg0)) (m ((c : Thread nD τ).loc main_arg3))) (m ((c : Thread nD τ).loc main_arg1)) := by
  show StableHlo.after hostOps1 (W4 m ρ c) (Proc.devRef .tc main_v43) = _
  simp only [hostOps1]
  after_results_simp
  rw [W4_src, W4_dst, W4_weight, W4_h]
  rfl

/-- The three bias vectors, each as one row. -/
theorem W5_b : W5 m ρ c (Proc.devRef .tc main_v44) = asRow (m ((c : Thread nD τ).loc main_arg4)) := by
  show StableHlo.after hostOps1 (W4 m ρ c) (Proc.devRef .tc main_v44) = _
  simp only [hostOps1]
  after_results_simp
  rw [W4_arg m ρ c main_arg4 (by simp)]
  exact shapeCast_eq_asRow _ _
theorem W5_b1 : W5 m ρ c (Proc.devRef .tc main_v45) = asRow (m ((c : Thread nD τ).loc main_arg6)) := by
  show StableHlo.after hostOps1 (W4 m ρ c) (Proc.devRef .tc main_v45) = _
  simp only [hostOps1]
  after_results_simp
  rw [W4_arg m ρ c main_arg6 (by simp)]
  exact shapeCast_eq_asRow _ _
theorem W5_b2 : W5 m ρ c (Proc.devRef .tc main_v46) = asRow (m ((c : Thread nD τ).loc main_arg8)) := by
  show StableHlo.after hostOps1 (W4 m ρ c) (Proc.devRef .tc main_v46) = _
  simp only [hostOps1]
  after_results_simp
  rw [W4_arg m ρ c main_arg8 (by simp)]
  exact shapeCast_eq_asRow _ _

/-- The arguments the second region stages are as launched when it is entered. -/
theorem W5_arg (b : Ref sig .tc) (hb : b = main_arg0 ∨ b = main_arg2 ∨ b = main_arg5 ∨ b = main_arg7) :
    W5 m ρ c (Proc.devRef .tc b) = m ((c : Thread nD τ).loc b) := by
  show StableHlo.after hostOps1 (W4 m ρ c) (Proc.devRef .tc b) = _
  simp only [hostOps1]
  rcases hb with rfl | rfl | rfl | rfl
  · after_results_simp; exact W4_x m ρ c
  · after_results_simp; exact W4_arg m ρ c main_arg2 (by simp)
  · after_results_simp; exact W4_arg m ρ c main_arg5 (by simp)
  · after_results_simp; exact W4_arg m ρ c main_arg7 (by simp)

/-! ## The result -/

/-- What the last boundary's contents hold at the result buffer: the whole network of the arguments. -/
theorem kernel_value : W6 m ρ c (Proc.devRef .tc main_v47)
    = netOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (W6_arr m ρ c 8).trans ((fc_array (V5 m ρ) c).trans ?_)
  show fcOut (W5 m ρ c (Proc.devRef .tc main_v43)) (W5 m ρ c (Proc.devRef .tc main_v44)) (W5 m ρ c (Proc.devRef .tc main_arg2))
    (W5 m ρ c (Proc.devRef .tc main_arg0)) (W5 m ρ c (Proc.devRef .tc main_arg5)) (W5 m ρ c (Proc.devRef .tc main_v45))
    (W5 m ρ c (Proc.devRef .tc main_arg7)) (W5 m ρ c (Proc.devRef .tc main_v46)) = _
  rw [W5_agg, W5_b, W5_b1, W5_b2, W5_arg m ρ c main_arg0 (by simp), W5_arg m ρ c main_arg2 (by simp),
    W5_arg m ρ c main_arg5 (by simp), W5_arg m ρ c main_arg7 (by simp)]
  rfl

/-- The kernel program's run: the result buffer ends at the whole network of the arguments, the arguments as launched. -/
theorem run : θ_run defs (onTc (τ := τ) (main (F := Ideal))) ⟨m, fun _ => 0, ρ⟩ (fun r => ∀ c : Dev nD,
      r.2.mem ((c.tc : Thread nD τ).loc main_v47)
        = netOut (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (kernel_value m ρ c), (h c).2⟩) (run_value (F := Ideal) m ρ)

end Cert.KernelIdeal.Hand

end
-- ==== Proof.LibSlabs.lean ====
/-
  Slabs, unit axes and row broadcasts, read at an index.

  Layout operations that stacked arrays meet on both sides of a kernel and its reference. On the host: a one-row array
  broadcast down `R` rows; an array given a new leading unit axis by a broadcast; slab `l` of an array stacked along its first
  axis, cut out by a slice and its unit axis dropped (rank 3 to a matrix, rank 2 to a vector); a matrix given a unit axis
  between its two axes by a reshape. In a kernel: the unit-stride rectangle that is slab `l` of a rank-3 buffer, its own
  index `(0, p, k)` placed at `(l, p, k)`, and a load through it. Each is stated over any element type and over literal
  coordinates, so that it fires on indices built by `ix1`, `ix2`, `ix3`.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type}

/-! ## Host broadcasts -/

/-- A one-row array broadcast to `R` rows (axes kept in place) reads, at `(r, n)`, the row's entry `n`. -/
theorem rows_of_oneRow {R N : ℕ} (hb2 : (⟨2, ![1, N]⟩ : Shape).BroadcastsInDim ⟨2, ![R, N]⟩ (![0, 1] : Fin 2 → Fin 2))
    (v : (⟨2, ![1, N]⟩ : Shape).Idx → α) (r : Fin R) (n : Fin N) :
    broadcastInDim ⟨2, ![R, N]⟩ ![0, 1] hb2 v (ix2 r n) = v (ix2 (0 : Fin 1) n) :=
  broadcastInDim_apply _ hb2 v (ix2 r n) (ix2 (0 : Fin 1) n) (fun a => match a with
    | ⟨0, _⟩ => by
      show (0 : ℕ) = if (1 : ℕ) = 1 then 0 else r.val
      rw [if_pos rfl]
    | ⟨1, _⟩ => by
      show n.val = if N = 1 then 0 else n.val
      have h1 : n.val < N := n.isLt
      split
      · omega
      · rfl)

/-- A matrix broadcast under a new leading unit axis reads, at `(0, p, k)`, the matrix's `(p, k)`. -/
theorem addUnit_bcast_at {a b : ℕ} (hb : (⟨2, ![a, b]⟩ : Shape).BroadcastsInDim ⟨3, ![1, a, b]⟩ (![1, 2] : Fin 2 → Fin 3))
    (v : (⟨2, ![a, b]⟩ : Shape).Idx → α) (u : Fin 1) (p : Fin a) (k : Fin b) :
    broadcastInDim ⟨3, ![1, a, b]⟩ ![1, 2] hb v (ix3 u p k) = v (ix2 p k) :=
  broadcastInDim_apply _ hb v (ix3 u p k) (ix2 p k) (fun ax => match ax with
    | ⟨0, _⟩ => by
      show p.val = if a = 1 then 0 else p.val
      have h1 : p.val < a := p.isLt
      split
      · omega
      · rfl
    | ⟨1, _⟩ => by
      show k.val = if b = 1 then 0 else k.val
      have h1 : k.val < b := k.isLt
      split
      · omega
      · rfl)

/-! ## A layer's slab of a stacked host array -/

/-- Slab `l` of an array stacked along its first axis, its unit axis dropped: entry `(p, k)` is the array's `(l, p, k)`. -/
theorem hostSlab3 {n0 a b l : ℕ} (hl : l < n0) (X : (⟨3, ![n0, a, b]⟩ : Shape).Idx → α)
    (hs : (⟨3, ![n0, a, b]⟩ : Shape).Slices ![l, 0, 0] ⟨3, ![1, a, b]⟩)
    (hc : (⟨3, ![1, a, b]⟩ : Shape).ShapeCasts ⟨2, ![a, b]⟩) (p : Fin a) (k : Fin b) :
    shapeCast ⟨2, ![a, b]⟩ (extractStridedSlice ⟨3, ![1, a, b]⟩ ![l, 0, 0] X hs) hc (ix2 p k) = X (ix3 (⟨l, hl⟩ : Fin n0) p k) := by
  rw [shapeCast_1ab_ab_apply]
  exact extractStridedSlice_apply _ X hs _ _ (fun ax => match ax with
    | ⟨0, _⟩ => (Nat.add_zero l).symm
    | ⟨1, _⟩ => (Nat.zero_add _).symm
    | ⟨2, _⟩ => (Nat.zero_add _).symm)

/-- Row `l` of a matrix as a vector: entry `n` is the matrix's `(l, n)`. -/
theorem hostSlab2 {n0 a l : ℕ} (hl : l < n0) (X : (⟨2, ![n0, a]⟩ : Shape).Idx → α)
    (hs : (⟨2, ![n0, a]⟩ : Shape).Slices ![l, 0] ⟨2, ![1, a]⟩)
    (hc : (⟨2, ![1, a]⟩ : Shape).ShapeCasts ⟨1, ![a]⟩) (n : Fin a) :
    shapeCast ⟨1, ![a]⟩ (extractStridedSlice ⟨2, ![1, a]⟩ ![l, 0] X hs) hc (ix1 n) = X (ix2 (⟨l, hl⟩ : Fin n0) n) := by
  rw [shapeCast_1a_a_apply]
  exact slice2_axis0_apply l X hs (0 : Fin 1) n ⟨l, hl⟩ (Nat.add_zero l).symm

/-- A matrix with a unit axis put between its two axes: entry `(l, 0, n)` is the matrix's `(l, n)`. -/
theorem midUnit_at {a b : ℕ} (X : (⟨2, ![a, b]⟩ : Shape).Idx → α)
    (h : (⟨2, ![a, b]⟩ : Shape).ShapeCasts ⟨3, ![a, 1, b]⟩) (l : Fin a) (u : Fin 1) (n : Fin b) :
    shapeCast ⟨3, ![a, 1, b]⟩ X h (ix3 l u n) = X (ix2 l n) :=
  shapeCast_apply X h _ _ (by
    have hu : u.val = 0 := by omega
    rw [Shape.rowMajor_val_three, Shape.rowMajor_val_two]
    show l.val * b + n.val = (l.val * 1 + u.val) * b + n.val
    rw [hu, Nat.mul_one, Nat.add_zero])

/-! ## A layer's slab of a stacked buffer in a kernel -/

/-- Slab `l` of a buffer stacked along its first axis: its own index `(0, p, k)` sits at `(l, p, k)`. -/
theorem slab_emb {n0 a b l : ℕ} {off : Fin 3 → ℕ} (ho : off = ![l, 0, 0])
    (inb : ∀ ax, off ax + (![1, a, b] : Fin 3 → ℕ) ax ≤ (⟨3, ![n0, a, b]⟩ : Shape).size ax) (hl : l < n0)
    (x : (⟨3, ![1, a, b]⟩ : Shape).Idx) :
    (Rect.unit (s := ⟨3, ![n0, a, b]⟩) off ![1, a, b] inb).emb x = ix3 (⟨l, hl⟩ : Fin n0) (x 1) (x 2) := by
  subst ho
  funext ax
  match ax with
  | ⟨0, _⟩ =>
    have h0 : (x 0).val < 1 := (x 0).isLt
    exact Fin.ext (show l + 1 * (x 0).val = l by omega)
  | ⟨1, _⟩ => exact Fin.ext (show 0 + 1 * (x 1).val = (x 1).val by omega)
  | ⟨2, _⟩ => exact Fin.ext (show 0 + 1 * (x 2).val = (x 2).val by omega)

/-- What a load of slab `l` reads at `(0, p, k)` — the buffer's contents at the slab's embedded index — is the contents
    at `(l, p, k)`. -/
theorem ld_slab {n0 a b l : ℕ} {off : Fin 3 → ℕ} (ho : off = ![l, 0, 0])
    (inb : ∀ ax, off ax + (![1, a, b] : Fin 3 → ℕ) ax ≤ (⟨3, ![n0, a, b]⟩ : Shape).size ax) (hl : l < n0)
    (X : (⟨3, ![n0, a, b]⟩ : Shape).Idx → α) (u : Fin 1) (p : Fin a) (k : Fin b) :
    X ((Rect.unit (s := ⟨3, ![n0, a, b]⟩) off ![1, a, b] inb).emb (ix3 u p k)) = X (ix3 (⟨l, hl⟩ : Fin n0) p k) :=
  congrArg X (slab_emb ho inb hl (ix3 u p k))

end Cert.Lib

end
-- ==== Proof.RefValue.lean ====
/-
  The reference's result is the same function of the arguments.

  The reference computes the product `x · W` with one `dot_general`, runs the same aggregation on it, adds the bias,
  takes the positive part, joins with the temporal features, applies the first dense layer, joins with the input
  features and applies the second. Entry `(p, u)` of its result is therefore the node-wise network of Proof/RowNet.lean
  on row `p` of the aggregated, temporal and input features: a `dot_general` of rows against columns is the row-by-column
  sum, a bias vector broadcast to a row and then down the array reads the vector's entry, a scalar broadcast reads the
  scalar, and two arrays joined side by side read as the two rows joined. That is the kernel program's `netOut`.
-/
import proofs.«165970_j84602265796646_1_alg».proof.Proof.KernelValue
import proofs.«165970_j84602265796646_1_alg».proof.Proof.LibSlabs
import proofs.«165970_j84602265796646_1_alg».proof.Proof.LibPair

noncomputable section

namespace Cert.ReferenceIdeal.Hand

open Idealize.ShloMosaic Idealize.ShloMosaic.ValueIdx
open Cert.ReferenceIdeal Cert.ReferenceIdeal.Gen Cert.ReferenceIdeal.ReadP Cert.Lib Cert.Spec
open Cert.KernelIdeal.Hand (netOut fcOut linOut aggOf)
open scoped BigOperators

/-- The reference's three products are rows against columns. -/
theorem dotR0_eq : dot_S50000x128_S128x96_S50000x96_1_0_0_1_n_n = matDot dot_S50000x128_S128x96_S50000x96_1_0_0_1_n_n_wf := rfl
theorem dotR1_eq : dot_S50000x106_S106x96_S50000x96_1_0_0_1_n_n = matDot dot_S50000x106_S106x96_S50000x96_1_0_0_1_n_n_wf := rfl
theorem dotR2_eq : dot_S50000x224_S224x1_S50000x1_1_0_0_1_n_n = matDot dot_S50000x224_S224x1_S50000x1_1_0_0_1_n_n_wf := rfl

/-- The reference's projection is the whole product. -/
theorem ref_lin (x0 : (⟨S50000x128, .f32⟩ : BufTy).Contents (Elt Ideal)) (x3 : (⟨S128x96, .f32⟩ : BufTy).Contents (Elt Ideal)) :
    val_main_v30 (F := Ideal) x0 x3 = linOut x0 x3 := by
  funext i
  obtain ⟨p, q, rfl⟩ : ∃ (p : Fin 50000) (q : Fin 96), i = ix2 p q := ⟨i 0, i 1, eq_ix2 i⟩
  unfold val_main_v30 linOut
  simp only [Host.dotGeneral, dotR0_eq, dotGeneral_plain_apply]

/-- The reference's tail — bias, positive part, the two dense layers — on ANY aggregated features `G`. -/
def tailOf {F : FTy → Type} [FloatOps F] (G : (⟨S50000x96, .f32⟩ : BufTy).Contents (Elt F)) (x0 : (⟨S50000x128, .f32⟩ : BufTy).Contents (Elt F))
    (x2 : (⟨S50000x10, .f32⟩ : BufTy).Contents (Elt F)) (x4 : (⟨S96, .f32⟩ : BufTy).Contents (Elt F))
    (x5 : (⟨S106x96, .f32⟩ : BufTy).Contents (Elt F)) (x6 : (⟨S96, .f32⟩ : BufTy).Contents (Elt F))
    (x7 : (⟨S224x1, .f32⟩ : BufTy).Contents (Elt F)) (x8 : (⟨S1, .f32⟩ : BufTy).Contents (Elt F)) :
    (⟨S50000x1, .f32⟩ : BufTy).Contents (Elt F) :=
  maximumf (addf (Host.dotGeneral dot_S50000x224_S224x1_S50000x1_1_0_0_1_n_n none
      (concatenate S50000x224 1 [⟨S50000x96, maximumf (addf (Host.dotGeneral dot_S50000x106_S106x96_S50000x96_1_0_0_1_n_n none
          (concatenate S50000x106 1 [⟨S50000x96, maximumf (addf G (broadcastInDim S50000x96 ![0, 1] bcast_S1x96_S50000x96_0_1 (broadcastInDim S1x96 ![1] bcast_S96_S1x96_1 x4)))
              (broadcastInDim S50000x96 ![] bcast_S_S50000x96 (constant S_ .f32 0x00000000#32))⟩, ⟨S50000x10, x2⟩] concatenates_S50000x96_S50000x10_S50000x106_d1) x5)
          (broadcastInDim S50000x96 ![0, 1] bcast_S1x96_S50000x96_0_1 (broadcastInDim S1x96 ![1] bcast_S96_S1x96_1 x6)))
        (broadcastInDim S50000x96 ![] bcast_S_S50000x96 (constant S_ .f32 0x00000000#32))⟩, ⟨S50000x128, x0⟩] concatenates_S50000x96_S50000x128_S50000x224_d1) x7)
      (broadcastInDim S50000x1 ![0, 1] bcast_S1x1_S50000x1_0_1 (broadcastInDim S1x1 ![1] bcast_S1_S1x1_1 x8)))
    (broadcastInDim S50000x1 ![] bcast_S_S50000x1 (constant S_ .f32 0x00000000#32))

/-- The reference's last stage is its tail on its aggregation stage. -/
theorem ref_last {F : FTy → Type} [FloatOps F] (x0 : (⟨S50000x128, .f32⟩ : BufTy).Contents (Elt F)) (x1 : (⟨S2x800000, .i32⟩ : BufTy).Contents (Elt F))
    (x2 : (⟨S50000x10, .f32⟩ : BufTy).Contents (Elt F)) (x3 : (⟨S128x96, .f32⟩ : BufTy).Contents (Elt F))
    (x4 : (⟨S96, .f32⟩ : BufTy).Contents (Elt F)) (x5 : (⟨S106x96, .f32⟩ : BufTy).Contents (Elt F))
    (x6 : (⟨S96, .f32⟩ : BufTy).Contents (Elt F)) (x7 : (⟨S224x1, .f32⟩ : BufTy).Contents (Elt F))
    (x8 : (⟨S1, .f32⟩ : BufTy).Contents (Elt F)) :
    val_main_v59 (F := F) x0 x1 x2 x3 x4 x5 x6 x7 x8 = tailOf (val_main_v43 (F := F) x0 x1 x3) x0 x2 x4 x5 x6 x7 x8 := rfl

/-- The tail, entry by entry, is the node-wise network on the node's rows. -/
theorem ref_tail (G : (⟨S50000x96, .f32⟩ : BufTy).Contents (Elt Ideal)) (x0 : (⟨S50000x128, .f32⟩ : BufTy).Contents (Elt Ideal))
    (x2 : (⟨S50000x10, .f32⟩ : BufTy).Contents (Elt Ideal)) (x4 : (⟨S96, .f32⟩ : BufTy).Contents (Elt Ideal))
    (x5 : (⟨S106x96, .f32⟩ : BufTy).Contents (Elt Ideal)) (x6 : (⟨S96, .f32⟩ : BufTy).Contents (Elt Ideal))
    (x7 : (⟨S224x1, .f32⟩ : BufTy).Contents (Elt Ideal)) (x8 : (⟨S1, .f32⟩ : BufTy).Contents (Elt Ideal)) :
    tailOf (F := Ideal) G x0 x2 x4 x5 x6 x7 x8 = fcOut G (asRow x4) x2 x0 x5 (asRow x6) x7 (asRow x8) := by
  funext i
  obtain ⟨p, u, rfl⟩ : ∃ (p : Fin 50000) (u : Fin 1), i = ix2 p u := ⟨i 0, i 1, eq_ix2 i⟩
  unfold tailOf fcOut nodeOut dense hidden0 zero
  simp only [Host.dotGeneral, dotR1_eq, dotR2_eq]
  simp only [maximumf_apply, addf_apply, dotGeneral_plain_apply,
    pair_cols_apply (show 224 = 96 + 128 from rfl), pair_cols_apply (show 106 = 96 + 10 from rfl),
    rows_of_oneRow bcast_S1x96_S50000x96_0_1, rows_of_oneRow bcast_S1x1_S50000x1_0_1,
    broadcastInDim_eq_asRow _ bcast_S96_S1x96_1, broadcastInDim_eq_asRow _ bcast_S1_S1x1_1,
    splat_apply _ bcast_S_S50000x96, splat_apply _ bcast_S_S50000x1, constant_apply]

/-- The reference's result is the whole network of the arguments. -/
theorem ref_value (x0 : (⟨S50000x128, .f32⟩ : BufTy).Contents (Elt Ideal)) (x1 : (⟨S2x800000, .i32⟩ : BufTy).Contents (Elt Ideal))
    (x2 : (⟨S50000x10, .f32⟩ : BufTy).Contents (Elt Ideal)) (x3 : (⟨S128x96, .f32⟩ : BufTy).Contents (Elt Ideal))
    (x4 : (⟨S96, .f32⟩ : BufTy).Contents (Elt Ideal)) (x5 : (⟨S106x96, .f32⟩ : BufTy).Contents (Elt Ideal))
    (x6 : (⟨S96, .f32⟩ : BufTy).Contents (Elt Ideal)) (x7 : (⟨S224x1, .f32⟩ : BufTy).Contents (Elt Ideal))
    (x8 : (⟨S1, .f32⟩ : BufTy).Contents (Elt Ideal)) :
    val_main_v59 (F := Ideal) x0 x1 x2 x3 x4 x5 x6 x7 x8 = netOut x0 x1 x2 x3 x4 x5 x6 x7 x8 := by
  unfold netOut
  rw [← ref_lin x0 x3, ← Cert.KernelIdeal.Hand.ref_agg x0 x1 x3, ref_last]
  exact ref_tail (val_main_v43 (F := Ideal) x0 x1 x3) x0 x2 x4 x5 x6 x7 x8

end Cert.ReferenceIdeal.Hand

end
-- ==== Proof.lean ====
/-
  The certificate of a graph-convolution layer followed by two dense layers, computed by two kernels with host
  operations between them, against its plain reference.

  Both programs compute, for every node `p` of a graph with 50000 nodes and 800000 edges (plus one self-loop per node),

      h   = x · W                                             (projection, 50000 × 96)
      g_p = Σ over edges e into p of  w_e · h_{source e}      (aggregation; w_e from the degrees' inverse square roots)
      y_p = max ([max ([max (g_p + b) 0 , temporal_p] · W₁ + b₁) 0 , x_p] · W₂ + b₂) 0

  on the extended reals. The kernel program computes `h` in a first kernel (blocks of 2000 rows, operands rounded to
  bf16 — the identity on the extended reals), the aggregation by the same host operations as the reference (a gather, a
  product, a scatter-add), and `y` in a second kernel (blocks of 1000 nodes). No law of arithmetic is needed beyond
  reading both sides at an index: the two sides are the same sums of the same products, so the precondition (finite
  inputs) is never opened.

  * the frames of the word-level and of the idealized kernel program are the generated frame certificates; the
    reference's frame is its run with the result dropped;
  * the idealization rewrote nothing, so `preserves` is `True`;
  * `algebraic`: the kernel program's run ends with the result at `netOut` of the arguments (Proof/KernelValue.lean),
    the reference's at its last stage (Proof/RefRun.lean), which is the same `netOut` (Proof/RefValue.lean).
-/
import proofs.«165970_j84602265796646_1_alg».proof.Defs
import proofs.«165970_j84602265796646_1_alg».proof.Proof.Gen.Kernel
import proofs.«165970_j84602265796646_1_alg».proof.Proof.Gen.Kernel.Skeleton
import proofs.«165970_j84602265796646_1_alg».proof.Proof.Gen.Kernel.Launch
import proofs.«165970_j84602265796646_1_alg».proof.Proof.Gen.Kernel.Points
import proofs.«165970_j84602265796646_1_alg».proof.Proof.Gen.Kernel.Frame
import proofs.«165970_j84602265796646_1_alg».proof.Proof.Gen.KernelIdeal
import proofs.«165970_j84602265796646_1_alg».proof.Proof.Gen.KernelIdeal.Skeleton
import proofs.«165970_j84602265796646_1_alg».proof.Proof.Gen.KernelIdeal.Launch
import proofs.«165970_j84602265796646_1_alg».proof.Proof.Gen.KernelIdeal.Points
import proofs.«165970_j84602265796646_1_alg».proof.Proof.Gen.KernelIdeal.Frame
import proofs.«165970_j84602265796646_1_alg».proof.Proof.Gen.ReferenceIdeal
import proofs.«165970_j84602265796646_1_alg».proof.Proof.Gen.Pre_finite_inputs
import proofs.«165970_j84602265796646_1_alg».proof.Proof.RefRun
import proofs.«165970_j84602265796646_1_alg».proof.Proof.KernelValue
import proofs.«165970_j84602265796646_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Staged.run (F := Ideal) m ρ)

/-- The idealization rewrote no operation. -/
theorem preserves : Cert.preserves_Kernel_KernelIdeal := trivial

/-- Both runs end with the result at the whole network `netOut` of the arguments, which agree. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Staged.run (F := Ideal) m' ρ')
  rw [Cert.ReferenceIdeal.Hand.ref_value]
  obtain ⟨e0, e1, e2, e3, e4, e5, e6, e7, e8⟩ := hagree c
  rw [e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
